-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel

variable [Facts]

def fn {F : FTy → Type} [FloatOps F] (main_arg0 : FVec F S32x1024x3 .f32) (main_arg1 : FVec F S32x1024x3 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S32x1024x3 .f32 := Host.absf main_arg1
  let main_cst_0 : FVec F S_ .f32 := constant S_ .f32 0x7F800000#32
  let main_v5 : FVec F S32x1024x3 .f32 := broadcastInDim S32x1024x3 ![] bcast_S_S32x1024x3 main_cst_0
  let main_v6 : IVec S32x1024x3 1 := cmpf .olt main_v4 main_v5
  let main_c_1 : IVec S_ 1 := constantI S_ 1 1#1
  let main_v7 : IVec S_ 1 := (fun x v => Host.reduce IntOp.andi x v reducesTo_S32x1024x3_S_d0_1_2 h_S_) main_v6 main_c_1
  let main_v8 : IVec S_ 1 := andi main_v3 main_v7
  main_v8
-- ==== Kernel.lean ====
abbrev S32x1024x3 : Shape := ⟨3, ![32, 1024, 3]⟩
abbrev S32x3x1024 : Shape := ⟨3, ![32, 3, 1024]⟩
abbrev S16x128 : Shape := ⟨2, ![16, 128]⟩
abbrev S1x3x1024 : Shape := ⟨3, ![1, 3, 1024]⟩
abbrev S8x128 : Shape := ⟨2, ![8, 128]⟩
abbrev S3x1024 : Shape := ⟨2, ![3, 1024]⟩
abbrev S1x1 : Shape := ⟨2, ![1, 1]⟩
abbrev S1x3x256 : Shape := ⟨3, ![1, 3, 256]⟩
abbrev S3x256 : Shape := ⟨2, ![3, 256]⟩
abbrev S256x1024 : Shape := ⟨2, ![256, 1024]⟩
abbrev S1x256 : Shape := ⟨2, ![1, 256]⟩
abbrev S256x1 : Shape := ⟨2, ![256, 1]⟩
abbrev S1x1024 : Shape := ⟨2, ![1, 1024]⟩
abbrev S256 : Shape := ⟨1, ![256]⟩
abbrev S1 : Shape := ⟨1, ![1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S32x1024x3, .f32⟩
  | .hbm, ⟨1, _⟩ => ⟨S32x1024x3, .f32⟩
  | .hbm, ⟨2, _⟩ => ⟨S32x3x1024, .f32⟩
  | .hbm, ⟨3, _⟩ => ⟨S32x3x1024, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S8x128, .f32⟩
  | .local _ .vmem, ⟨5, _⟩ => ⟨S8x128, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_6 : BitVec 32 := 0#32
  let c4_i32 : BitVec 32 := 4#32
  let v8 : BitVec 32 := Scalar.addi c0_i32_6 c4_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg5 : BitVec 32 := Scf.iv c0_i32_6 c1_i32 k0_t1
  let c256_i32 : BitVec 32 := 256#32
  let v18 : BitVec 32 := Scalar.muli arg5 c256_i32
  v18
def k0_off1 (k0_t1 : Fin k0_t1_loop.trips) : Fin 3 → Nat :=
  let c0_14 : Index := 0#32
  let c0_15 : Index := 0#32
  let c0_i32_6 : BitVec 32 := 0#32
  let c1_i32 : BitVec 32 := 1#32
  let arg5 : BitVec 32 := Scf.iv c0_i32_6 c1_i32 k0_t1
  let c256_i32 : BitVec 32 := 256#32
  let v18 : BitVec 32 := Scalar.muli arg5 c256_i32
  let v19 : BitVec 32 := v18
  let v20 : Index := Scalar.indexCast v19
  ![0, 0, v20.toNat]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S32x1024x3_S32x3x1024_0_2_1 : S32x1024x3.Transposes [0, 2, 1] S32x3x1024
  inb_S8x128_S8x128_0_0 : ∀ a, (![0, 0] : Fin 2 → Nat) a + S8x128.size a ≤ S8x128.size a
  h_S8x128 : 0 < S8x128.numel
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  h_S1x3x256 : 0 < S1x3x256.numel
  shapeCasts_S1x3x256_S3x256 : S1x3x256.ShapeCasts S3x256
  slices_S3x256_o0_0_S1x256 : S3x256.Slices ![0, 0] S1x256
  transposes_S1x256_p1_0_S256x1 : S1x256.Transposes [1, 0] S256x1
  slices_S3x1024_o0_0_S1x1024 : S3x1024.Slices ![0, 0] S1x1024
  broadcasts_S256x1_S256x1024 : S256x1.Broadcasts S256x1024
  broadcasts_S1x1024_S256x1024 : S1x1024.Broadcasts S256x1024
  slices_S3x256_o1_0_S1x256 : S3x256.Slices ![1, 0] S1x256
  slices_S3x1024_o1_0_S1x1024 : S3x1024.Slices ![1, 0] S1x1024
  slices_S3x256_o2_0_S1x256 : S3x256.Slices ![2, 0] S1x256
  slices_S3x1024_o2_0_S1x1024 : S3x1024.Slices ![2, 0] S1x1024
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x3x256.size a ≤ S1x3x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S32x3x1024.size a
  hwx0_0 : ∀ i : grid0.Coords, EltTy.bits .f32 = 32 ∨ (Rect.block (s := S32x3x1024) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S32x3x1024.size a
  hwx0_1 : ∀ i : grid0.Coords, EltTy.bits .f32 = 32 ∨ (Rect.block (s := S32x3x1024) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S32x1024x1x3 : Shape := ⟨4, ![32, 1024, 1, 3]⟩
abbrev S32x1x1024x3 : Shape := ⟨4, ![32, 1, 1024, 3]⟩
abbrev S32x1024x1024x3 : Shape := ⟨4, ![32, 1024, 1024, 3]⟩
abbrev S_ : Shape := ⟨0, ![]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32 : Shape := ⟨1, ![32]⟩

abbrev nBuf : Space → Nat
  | .hbm => 58
  | .vmem => 0
  | .smem => 0
  | _ => 0

abbrev bufTy : (tb : Table) → Fin (tcTables nBuf tb) → BufTy
  | .hbm, ⟨0, _⟩ => ⟨S32x1024x3, .f32⟩
  | .hbm, ⟨1, _⟩ => ⟨S32x1024x3, .f32⟩
  | .hbm, ⟨2, _⟩ => ⟨S32x1024x1x3, .f32⟩
  | .hbm, ⟨3, _⟩ => ⟨S32x1x1024x3, .f32⟩
  | .hbm, ⟨4, _⟩ => ⟨S32x1024x1024x3, .f32⟩
  | .hbm, ⟨5, _⟩ => ⟨S32x1024x1024x3, .f32⟩
  | .hbm, ⟨6, _⟩ => ⟨S32x1024x1024x3, .f32⟩
  | .hbm, ⟨7, _⟩ => ⟨S32x1024x1024x3, .f32⟩
  | .hbm, ⟨8, _⟩ => ⟨S_, .f32⟩
  | .hbm, ⟨9, _⟩ => ⟨S32x1024x1024, .f32⟩
  | .hbm, ⟨10, _⟩ => ⟨S_, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S32x1024x1x3, .f32⟩
  | .hbm, ⟨15, _⟩ => ⟨S32x1x1024x3, .f32⟩
  | .hbm, ⟨16, _⟩ => ⟨S32x1024x1024x3, .f32⟩
  | .hbm, ⟨17, _⟩ => ⟨S32x1024x1024x3, .f32⟩
  | .hbm, ⟨18, _⟩ => ⟨S32x1024x1024x3, .f32⟩
  | .hbm, ⟨19, _⟩ => ⟨S32x1024x1024x3, .f32⟩
  | .hbm, ⟨20, _⟩ => ⟨S_, .f32⟩
  | .hbm, ⟨21, _⟩ => ⟨S32x1024x1024, .f32⟩
  | .hbm, ⟨22, _⟩ => ⟨S_, .f32⟩
  | .hbm, ⟨23, _⟩ => ⟨S32x1024x1024, .f32⟩
  | .hbm, ⟨24, _⟩ => ⟨S32x1024x1024, .f32⟩
  | .hbm, ⟨25, _⟩ => ⟨S32x1024x1024, .f32⟩
  | .hbm, ⟨26, _⟩ => ⟨S1024x1024, .i32⟩
  | .hbm, ⟨27, _⟩ => ⟨S1024x1024, .i32⟩
  | .hbm, ⟨28, _⟩ => ⟨S_, .i32⟩
  | .hbm, ⟨29, _⟩ => ⟨S1024x1024, .i32⟩
  | .hbm, ⟨30, _⟩ => ⟨S1024x1024, .i32⟩
  | .hbm, ⟨31, _⟩ => ⟨S1024x1024, .i1⟩
  | .hbm, ⟨32, _⟩ => ⟨S32x1024x1024, .i1⟩
  | .hbm, ⟨33, _⟩ => ⟨S32x1024x1024, .i1⟩
  | .hbm, ⟨34, _⟩ => ⟨S1x1024x1024, .i1⟩
  | .hbm, ⟨35, _⟩ => ⟨S1x1024x1024, .i1⟩
  | .hbm, ⟨36, _⟩ => ⟨S32x1024x1024, .i1⟩
  | .hbm, ⟨37, _⟩ => ⟨S32x1024x1024, .i1⟩
  | .hbm, ⟨38, _⟩ => ⟨S32x1024x1024, .f32⟩
  | .hbm, ⟨39, _⟩ => ⟨S32x1024x1024, .f32⟩
  | .hbm, ⟨40, _⟩ => ⟨S_, .f32⟩
  | .hbm, ⟨41, _⟩ => ⟨S_, .f32⟩
  | .hbm, ⟨42, _⟩ => ⟨S32x1024x1024, .f32⟩
  | .hbm, ⟨43, _⟩ => ⟨S32x1024x1024, .f32⟩
  | .hbm, ⟨44, _⟩ => ⟨S_, .f32⟩
  | .hbm, ⟨45, _⟩ => ⟨S32, .f32⟩
  | .hbm, ⟨46, _⟩ => ⟨S32x1024x1024, .i32⟩
  | .hbm, ⟨47, _⟩ => ⟨S_, .i32⟩
  | .hbm, ⟨48, _⟩ => ⟨S32, .i32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S32x1024x3_S32x1024x1x3_0_1_3 : S32x1024x3.BroadcastsInDim S32x1024x1x3 (![0, 1, 3] : Fin 3 → Fin S32x1024x1x3.rank)
  bcast_S32x1024x3_S32x1x1024x3_0_2_3 : S32x1024x3.BroadcastsInDim S32x1x1024x3 (![0, 2, 3] : Fin 3 → Fin S32x1x1024x3.rank)
  bcast_S32x1024x1x3_S32x1024x1024x3_0_1_2_3 : S32x1024x1x3.BroadcastsInDim S32x1024x1024x3 (![0, 1, 2, 3] : Fin 4 → Fin S32x1024x1024x3.rank)
  bcast_S32x1x1024x3_S32x1024x1024x3_0_1_2_3 : S32x1x1024x3.BroadcastsInDim S32x1024x1024x3 (![0, 1, 2, 3] : Fin 4 → Fin S32x1024x1024x3.rank)
  reducesTo_S32x1024x1024x3_S32x1024x1024_d3 : S32x1024x1024x3.ReducesTo [3] S32x1024x1024
  h_S_ : 0 < S_.numel
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32_d1_2 : S32x1024x1024.ReducesTo [1, 2] S32
  natLt_1_32 : 1 < 32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.KernelPoint.lean ====
/-
  The kernel body, read: what one grid point leaves at entry (0, 0) of its output block.

  The body handles one cloud (the point's two input blocks `x0`, `x1`, each `[1, 3, 1024]`: three coordinate
  rows of 1024 points). A counted loop of four trips carries a `[1, 1]` total: trip `k` loads the 256 columns
  `256k … 256k + 255` of both blocks and adds that tile's sum to the carried value. After the loop the body
  divides the total twice and ADDS the result into entry (0, 0) of the output block — at the first point of a
  core's run after storing a block of zeros there (so onto `0`), at every later point onto what the point
  before left. This module states those facts over the body's own payload terms, for any float instance; the
  arithmetic inside the payloads is opened elsewhere.
-/
import proofs.«136141_j31954556682741_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem

namespace Cert.KernelIdeal.PointValue

open Cert.KernelIdeal Cert.KernelIdeal.Gen Idealize.ShloMosaic.ValueIdx

variable {F : FTy → Type} [FloatOps F]

/-! ## One trip and the four trips -/

/-- The rectangle trip `k` loads: all three rows, columns `256k … 256k + 255`. -/
abbrev tileRect (k : Fin k0_t1_loop.trips) : Rect S1x3x1024 :=
  Rect.unit (s := S1x3x1024) (k0_off1 k) S1x3x256.size (k0_off1_inb k)

/-- One trip on the carried value `acc`: the tile sum of the two blocks' tiles `t0`, `t1` against the whole
    blocks, added to `acc` (the body's payloads, composed as the loop's region composes them). -/
def tripVal (x0 x1 : Vec F S1x3x1024 .f32) (t0 t1 : Vec F S1x3x256 .f32) (acc : FVec F S1x1 .f32) : FVec F S1x1 .f32 :=
  k0_pay5 x1 acc (k0_pay8 (k0_pay2 x0) t0) (k0_pay9 (k0_pay3 x1) t1) (k0_pay10 t1)

/-- The trip the run found is that composition, at the tiles it loads. -/
theorem tripR_eq (𝒱 : Variants) (c : Dev nD) (bd : Option 𝒱.V) (i : grid0.Coords)
    (a2 : Memref sig .tc .vmem S1x3x1024 .f32) (h2 : a2.IsWhole) (a3 : Memref sig .tc .vmem S1x3x1024 .f32) (h3 : a3.IsWhole)
    (a4 : Memref sig .tc .vmem S8x128 .f32) (h4 : a4.IsWhole) (v3 v5 : Vec F S1x3x1024 .f32)
    (X2 : BufTy.Contents (Elt F) a2.view.ty) (X3 : BufTy.Contents (Elt F) a3.view.ty)
    (k : Fin k0_t1_loop.trips) (acc : FVec F S1x1 .f32) :
    tripR_k0_t1 (F := F) 𝒱 c bd i a2 h2 a3 h3 a4 h4 v3 v5 X2 X3 k acc
      = tripVal v3 v5 (View.readAt (Elt F) a2.view (tileRect k).toLoadRect X2)
          (View.readAt (Elt F) a3.view (tileRect k).toLoadRect X3) acc := by
  unfold tripR_k0_t1
  unfold trip_k0_t1
  dsimp only
  sl_unfold_words
  rfl

theorem trips_eq : k0_t1_loop.trips = 4 := by decide

/-- The four trip numbers. -/
abbrev trip0 : Fin k0_t1_loop.trips := ⟨0, by decide⟩
abbrev trip1 : Fin k0_t1_loop.trips := ⟨1, by decide⟩
abbrev trip2 : Fin k0_t1_loop.trips := ⟨2, by decide⟩
abbrev trip3 : Fin k0_t1_loop.trips := ⟨3, by decide⟩

/-- The carried value after the fourth trip is the four trips applied in order to the initial one. -/
theorem st_four (𝒱 : Variants) (c : Dev nD) (bd : Option 𝒱.V) (i : grid0.Coords)
    (a2 : Memref sig .tc .vmem S1x3x1024 .f32) (h2 : a2.IsWhole) (a3 : Memref sig .tc .vmem S1x3x1024 .f32) (h3 : a3.IsWhole)
    (a4 : Memref sig .tc .vmem S8x128 .f32) (h4 : a4.IsWhole) (v3 v5 : Vec F S1x3x1024 .f32)
    (X2 : BufTy.Contents (Elt F) a2.view.ty) (X3 : BufTy.Contents (Elt F) a3.view.ty) (init : FVec F S1x1 .f32) :
    st_k0_t1 (F := F) 𝒱 c bd i a2 h2 a3 h3 a4 h4 v3 v5 X2 X3 init 4
      = tripR_k0_t1 (F := F) 𝒱 c bd i a2 h2 a3 h3 a4 h4 v3 v5 X2 X3 trip3
          (tripR_k0_t1 (F := F) 𝒱 c bd i a2 h2 a3 h3 a4 h4 v3 v5 X2 X3 trip2
            (tripR_k0_t1 (F := F) 𝒱 c bd i a2 h2 a3 h3 a4 h4 v3 v5 X2 X3 trip1
              (tripR_k0_t1 (F := F) 𝒱 c bd i a2 h2 a3 h3 a4 h4 v3 v5 X2 X3 trip0 init))) := by
  have e3 := st_k0_t1_succ (F := F) 𝒱 c bd i a2 h2 a3 h3 a4 h4 v3 v5 X2 X3 init trip3
  have e2 := st_k0_t1_succ (F := F) 𝒱 c bd i a2 h2 a3 h3 a4 h4 v3 v5 X2 X3 init trip2
  have e1 := st_k0_t1_succ (F := F) 𝒱 c bd i a2 h2 a3 h3 a4 h4 v3 v5 X2 X3 init trip1
  have e0 := st_k0_t1_succ (F := F) 𝒱 c bd i a2 h2 a3 h3 a4 h4 v3 v5 X2 X3 init trip0
  exact e3.trans (congrArg _ (e2.trans (congrArg _ (e1.trans (congrArg _ e0)))))

/-- The loop's result on the blocks `x0`, `x1`: four trips from the zero `[1, 1]` value, trip `k` at the tiles
    read off the blocks themselves. -/
def loopVal (x0 x1 : Vec F S1x3x1024 .f32) : FVec F S1x1 .f32 :=
  tripVal x0 x1 (View.ld x0 (tileRect trip3)) (View.ld x1 (tileRect trip3))
    (tripVal x0 x1 (View.ld x0 (tileRect trip2)) (View.ld x1 (tileRect trip2))
      (tripVal x0 x1 (View.ld x0 (tileRect trip1)) (View.ld x1 (tileRect trip1))
        (tripVal x0 x1 (View.ld x0 (tileRect trip0)) (View.ld x1 (tileRect trip0)) (k0_pay4 (F := F)))))

theorem hz3 : (![0, 0, 0] : Fin 3 → Nat) = fun _ => 0 := funext fun a => by fin_cases a <;> rfl

/-- The carried value the run's pieces name, on whole staging buffers holding `x0`, `x1`, is `loopVal`. -/
theorem st_eq_loopVal (c : Dev nD) (i : grid0.Coords)
    (a2 : Memref sig .tc .vmem S1x3x1024 .f32) (h2 : a2.IsWhole) (a3 : Memref sig .tc .vmem S1x3x1024 .f32) (h3 : a3.IsWhole)
    (a4 : Memref sig .tc .vmem S8x128 .f32) (h4 : a4.IsWhole) (x0 x1 : Vec F S1x3x1024 .f32) :
    st_k0_t1 (F := F) Variants.none c none i a2 h2 a3 h3 a4 h4
        (View.readAt (Elt F) a2.view (Rect.unit (s := S1x3x1024) ![0, 0, 0] S1x3x1024.size inb_S1x3x1024_S1x3x1024_0_0_0).toLoadRect (h2.unread x0))
        (View.readAt (Elt F) a3.view (Rect.unit (s := S1x3x1024) ![0, 0, 0] S1x3x1024.size inb_S1x3x1024_S1x3x1024_0_0_0).toLoadRect (h3.unread x1))
        (h2.unread x0) (h3.unread x1) (k0_pay4 (F := F)) (Scf.trips (0#32) (Scalar.addi 0#32 4#32) 1#32)
      = loopVal x0 x1 := by
  rw [show Scf.trips (0#32) (Scalar.addi 0#32 4#32) 1#32 = 4 from by decide, st_four]
  simp only [tripR_eq, View.readAt_eq_ld, h2.read_unread, h3.read_unread, View.ld_unit_zero (S := S1x3x1024) hz3]
  rfl

/-! ## The two cases' stores at entry (0, 0) -/

/-- The `[1, 1]` rectangle at the block's corner. -/
abbrev corner : Rect S8x128 := Rect.unit (s := S8x128) ![0, 0] S1x1.size inb_S8x128_S1x1_0_0

/-- Its one element is entry (0, 0) of the block. -/
theorem corner_emb (y : S1x1.Idx) : corner.emb y = ix2 (0 : Fin 8) (0 : Fin 128) := by
  funext a
  apply Fin.ext
  rw [Rect.emb_apply]
  match a with
  | ⟨0, _⟩ =>
    have h : (y 0).val < 1 := (y 0).isLt
    show 0 + 1 * (y 0).val = 0
    omega
  | ⟨1, _⟩ =>
    have h : (y 1).val < 1 := (y 1).isLt
    show 0 + 1 * (y 1).val = 0
    omega

theorem hz2 : (![0, 0] : Fin 2 → Nat) = fun _ => 0 := funext fun a => by fin_cases a <;> rfl

/-- A LATER point of a core's run: entry (0, 0) ends at the last payload of the loop's result and of the
    entry's old contents (the body's one store is at that entry alone). -/
theorem later_corner (c : Dev nD) (i : grid0.Coords)
    (a2 : Memref sig .tc .vmem S1x3x1024 .f32) (h2 : a2.IsWhole) (a3 : Memref sig .tc .vmem S1x3x1024 .f32) (h3 : a3.IsWhole)
    (a4 : Memref sig .tc .vmem S8x128 .f32) (h4 : a4.IsWhole) (hc : ¬cond0_0 i)
    (x0 x1 : Vec F S1x3x1024 .f32) (xo : Vec F S8x128 .f32) (y : S1x1.Idx) :
    out0_B_2 c i a2 h2 a3 h3 a4 h4 hc x0 x1 xo (ix2 (0 : Fin 8) (0 : Fin 128))
      = k0_pay6 (loopVal x0 x1) (View.ld xo corner) y := by
  unfold out0_B_2
  unfold kernelRun0_B
  dsimp only
  rw [st_eq_loopVal, View.readAt_eq_ld, h4.read_unread, ← corner_emb y]
  exact View.read_writes_of_unique a4.view (h4.unread xo) ⟨corner, _⟩ y _ (List.mem_singleton_self _)
    (fun q hq _ => List.mem_singleton.mp hq)

/-- The FIRST point of a core's run: the block is zeroed first, so entry (0, 0) ends at the last payload of the
    loop's result and of the zero block's corner. -/
theorem first_corner (c : Dev nD) (i : grid0.Coords)
    (a2 : Memref sig .tc .vmem S1x3x1024 .f32) (h2 : a2.IsWhole) (a3 : Memref sig .tc .vmem S1x3x1024 .f32) (h3 : a3.IsWhole)
    (a4 : Memref sig .tc .vmem S8x128 .f32) (h4 : a4.IsWhole) (hc : cond0_0 i)
    (x0 x1 : Vec F S1x3x1024 .f32) (y : S1x1.Idx) :
    out0_A_2 c i a2 h2 a3 h3 a4 h4 hc x0 x1 (ix2 (0 : Fin 8) (0 : Fin 128))
      = k0_pay6 (loopVal x0 x1) (View.ld (k0_pay1 (F := F)) corner) y := by
  unfold out0_A_2
  rw [View.read_writes_eq_canon _ _ _ (cover0_A_2 c i a2 h2 a3 h3 a4 h4 hc x0 x1)]
  unfold kernelRun0_A
  dsimp only
  sl_unfold_words
  rw [st_eq_loopVal, ← corner_emb y, View.canon_cons_emb]
  rw [View.readCov_eq_canon_ld _ _ _ (fun z => ⟨_, List.mem_singleton_self _, View.mem_set_unit_zero hz2 inb_S8x128_S8x128_0_0 z⟩),
    View.canon_unit_zero hz2]

end Cert.KernelIdeal.PointValue

end
-- ==== Proof.PairwiseLoss.lean ====
/-
  The quantity both programs compute, as plain sums over the extended reals.

  A cloud is 1024 points of 3-space; there are 32 clouds. For a cloud `x` the regularised distance between
  points `q` and `k` is `√(Σ_c (x q c − x k c)² + ε)`. For two batches of clouds `p` and `g` the
  discrepancy at the pair `(q, k)` of cloud `β` is the absolute difference of their two regularised
  distances. The loss is the mean over the 32 clouds of the mean discrepancy over pairs, divided by ten.

  Two spellings of "the mean over pairs" are stated: over ALL ordered pairs `(q, k)` with the number of pairs
  of distinct points as divisor, given as a float pattern (`lossFull`), and over the pairs `q ≠ k` only, with
  that number, 1024 · 1023 = 1047552, as a real (`lossMasked`). On a diagonal pair `q = k` both regularised
  distances are `√ε` whenever the coordinates are real numbers, so the discrepancy there is `0` and the two
  spellings agree on finite inputs; for an infinite coordinate `x − x` is not `0` and they need not.
-/
import Idealize.ShloMosaic.PureOps.Ideal
import Idealize.ShloMosaic.Lib.ValueIdx

noncomputable section

namespace Cert.PairwiseLoss

open Idealize.ShloMosaic

/-- A batch of clouds by coordinates: cloud, point, axis. -/
abbrev Clouds := Fin 32 → Fin 1024 → Fin 3 → EReal

/-- The regulariser `ε` under the square root: the float nearest `10⁻⁴`, as its pattern. -/
def eps : EReal := Ideal.ofBits .f32 0x38D1B717#32

/-- The squared distance between points `q` and `k` of cloud `β`. -/
def sqDist (x : Clouds) (β : Fin 32) (q k : Fin 1024) : EReal :=
  ∑ c : Fin 3, (x β q c - x β k c) * (x β q c - x β k c)

/-- The regularised distance `√(‖x_q − x_k‖² + ε)`. -/
def dist (x : Clouds) (β : Fin 32) (q k : Fin 1024) : EReal :=
  Ideal.sqrt (sqDist x β q k + eps)

/-- The discrepancy `|dist p − dist g|` at a pair, the absolute value as `max z (−z)`. -/
def gap (p g : Clouds) (β : Fin 32) (q k : Fin 1024) : EReal :=
  max (dist p β q k - dist g β q k) (-(dist p β q k - dist g β q k))

/-- The discrepancies of cloud `β` summed over all ordered pairs. -/
def total (p g : Clouds) (β : Fin 32) : EReal :=
  ∑ q : Fin 1024, ∑ k : Fin 1024, gap p g β q k

/-- The same sum with the diagonal pairs left out. -/
def offDiag (p g : Clouds) (β : Fin 32) : EReal :=
  ∑ q : Fin 1024, ∑ k : Fin 1024, if q = k then (0 : EReal) else gap p g β q k

/-- The number of ordered pairs of distinct points, 1024 · 1023, as the float pattern that is exactly it. -/
def pairs : EReal := Ideal.ofBits .f32 0x497FC000#32

/-- The constant ten and the number of clouds, as float patterns. -/
def ten : EReal := Ideal.ofBits .f32 0x41200000#32
def clouds : EReal := Ideal.ofBits .f32 0x42000000#32

/-- The loss with every pair summed and the divisor a float pattern. -/
def lossFull (p g : Clouds) : EReal :=
  Ideal.div (∑ β : Fin 32, Ideal.div (Ideal.div (total p g β) pairs) ten) clouds

/-- The loss with the diagonal masked out and the divisor the count of the pairs kept, a real. -/
def lossMasked (p g : Clouds) : EReal :=
  Ideal.div (∑ β : Fin 32, Ideal.div (Ideal.div (offDiag p g β) ((1047552 : ℝ) : EReal)) ten) clouds

/-- Every coordinate is a real number. -/
def Finite (x : Clouds) : Prop := ∀ β q c, ∃ r : ℝ, x β q c = (r : EReal)

/-- A rank-3 array of the programs' argument shape read by coordinates. -/
abbrev ofArray (X : (⟨3, ![32, 1024, 3]⟩ : Shape).Idx → EReal) : Clouds :=
  fun β q c => X (ValueIdx.ix3 β q c)

end Cert.PairwiseLoss

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.TileSum.lean ====
/-
  One trip of the body's loop on the extended reals: the carried value plus a tile's sum of discrepancies.

  The trip's arithmetic, for a tile of 256 points (three coordinate rows `t0`, `t1` of the two clouds) against
  all 1024 points (the whole blocks `x0`, `x1`): for tile point `r` and point `l` the squared distance is built
  coordinate by coordinate onto a zero, `((0 + d₀²) + d₁²) + d₂²` with `d_c = tile(c, r) − block(c, l)`; the
  regulariser is added and the root taken, for each cloud; the absolute difference of the two roots is summed
  along `l`, then along `r`, and added to the carried `[1, 1]` value. So at its one entry the trip leaves the
  carried entry plus `Σ_r Σ_l |√(‖t0_r − x0_l‖² + ε) − √(‖t1_r − x1_l‖² + ε)|`: no order of summation matters
  on the extended reals, and the zero the squares are added onto is the number zero.
-/
import proofs.«136141_j31954556682741_2_alg».proof.Proof.Gen.KernelIdeal.Skeleton
import proofs.«136141_j31954556682741_2_alg».proof.Proof.PairwiseLoss
import proofs.«136141_j31954556682741_2_alg».proof.Proof.LibRowOps
import proofs.«136141_j31954556682741_2_alg».proof.Proof.LibRowColOps
import Idealize.ShloMosaic.PureOps.Ideal.Laws
import Idealize.ShloMosaic.Lib.ValueIdx
import Idealize.ShloMosaic.Lib.Pipeline.Value

set_option maxRecDepth 16384

noncomputable section

open Idealize.ShloMosaic

namespace Cert.KernelIdeal.TileSum

open Cert.KernelIdeal Cert.KernelIdeal.Gen Idealize.ShloMosaic.ValueIdx Cert.RowOps Cert.RowColOps

/-! ## Points as coordinate triples -/

/-- The squared distance of two points of 3-space given by coordinates. -/
def sq (a b : Fin 3 → EReal) : EReal := ∑ c : Fin 3, (a c - b c) * (a c - b c)

/-- The discrepancy of two pairs of points: `|√(‖a − b‖² + ε) − √(‖a' − b'‖² + ε)|`. -/
def gapAt (a b a' b' : Fin 3 → EReal) : EReal :=
  max (Ideal.sqrt (sq a b + PairwiseLoss.eps) - Ideal.sqrt (sq a' b' + PairwiseLoss.eps))
    (-(Ideal.sqrt (sq a b + PairwiseLoss.eps) - Ideal.sqrt (sq a' b' + PairwiseLoss.eps)))

/-- The specification's discrepancy is that of the four points it names. -/
theorem gap_eq (p g : PairwiseLoss.Clouds) (β : Fin 32) (q k : Fin 1024) :
    PairwiseLoss.gap p g β q k = gapAt (p β q) (p β k) (g β q) (g β k) := rfl

/-- Three squares added in order onto zero are the sum of the three. -/
theorem sq_chain (z : EReal) (hz : z = 0) (a b : Fin 3 → EReal) :
    ((z + (a 0 - b 0) * (a 0 - b 0)) + (a 1 - b 1) * (a 1 - b 1)) + (a 2 - b 2) * (a 2 - b 2) = sq a b := by
  subst hz
  unfold sq
  rw [zero_add, Fin.sum_univ_three]

/-! ## Reading the layout chains -/

section Chains

variable {α : Type} {n a b : Nat}

/-- Row `c` of a `[1, n, a]` tile, turned into a column and repeated along a second axis, reads at (r, l) the
    tile at (0, c, r). -/
theorem tileCol_apply (t : (⟨3, ![1, n, a]⟩ : Shape).Idx → α) (c : Fin n) (off : Fin 2 → Nat) (hoff : off = ![c.val, 0])
    (h1 : (⟨3, ![1, n, a]⟩ : Shape).ShapeCasts ⟨2, ![n, a]⟩) (h2 : (⟨2, ![n, a]⟩ : Shape).Slices off ⟨2, ![1, a]⟩)
    (h3 : (⟨2, ![1, a]⟩ : Shape).Transposes [1, 0] ⟨2, ![a, 1]⟩) (h4 : (⟨2, ![a, 1]⟩ : Shape).Broadcasts ⟨2, ![a, b]⟩)
    (r : Fin a) (l : Fin b) :
    broadcastTo ⟨2, ![a, b]⟩ (transpose ⟨2, ![a, 1]⟩ [1, 0] (extractStridedSlice ⟨2, ![1, a]⟩ off (shapeCast ⟨2, ![n, a]⟩ t h1) h2) h3) h4 (ix2 r l)
      = t (ix3 (0 : Fin 1) c r) := by
  rw [spread_apply, swap_apply, sliceRow_apply _ c off hoff, dropLead_apply]

/-- A column already cut out, repeated along a second axis (the loop hands the third one on in that form). -/
theorem tileCol_apply' (t : (⟨3, ![1, n, a]⟩ : Shape).Idx → α) (c : Fin n) (off : Fin 2 → Nat) (hoff : off = ![c.val, 0])
    (h1 : (⟨3, ![1, n, a]⟩ : Shape).ShapeCasts ⟨2, ![n, a]⟩) (h2 : (⟨2, ![n, a]⟩ : Shape).Slices off ⟨2, ![1, a]⟩)
    (h3 : (⟨2, ![1, a]⟩ : Shape).Transposes [1, 0] ⟨2, ![a, 1]⟩) (r : Fin a) (u : Fin 1) :
    transpose ⟨2, ![a, 1]⟩ [1, 0] (extractStridedSlice ⟨2, ![1, a]⟩ off (shapeCast ⟨2, ![n, a]⟩ t h1) h2) h3 (ix2 r u)
      = t (ix3 (0 : Fin 1) c r) := by
  rw [swap_apply, sliceRow_apply _ c off hoff, dropLead_apply]

/-- Row `c` of a `[1, n, b]` block, repeated down a first axis, reads at (r, l) the block at (0, c, l). -/
theorem blockRow_apply (x : (⟨3, ![1, n, b]⟩ : Shape).Idx → α) (c : Fin n) (off : Fin 2 → Nat) (hoff : off = ![c.val, 0])
    (h1 : (⟨3, ![1, n, b]⟩ : Shape).ShapeCasts ⟨2, ![n, b]⟩) (h2 : (⟨2, ![n, b]⟩ : Shape).Slices off ⟨2, ![1, b]⟩)
    (h4 : (⟨2, ![1, b]⟩ : Shape).Broadcasts ⟨2, ![a, b]⟩) (r : Fin a) (l : Fin b) :
    broadcastTo ⟨2, ![a, b]⟩ (extractStridedSlice ⟨2, ![1, b]⟩ off (shapeCast ⟨2, ![n, b]⟩ x h1) h2) h4 (ix2 r l)
      = x (ix3 (0 : Fin 1) c l) := by
  rw [rowSpread_apply, sliceRow_apply _ c off hoff, dropLead_apply]

end Chains

/-- A sum along the second axis, kept as a column, summed along the first, kept as a `[1, 1]` value: at its one
    entry, the double sum. -/
theorem total_apply {a b : Nat} (v : FVec Ideal ⟨2, ![a, b]⟩ .f32) (w1 w0 : BitVec 32)
    (h1 : (⟨2, ![a, b]⟩ : Shape).Reduces [1] ⟨1, ![a]⟩) (hφ1 : FKind.Formats FTy.f32) (hw1 : w1 = FKind.add.neutral .f32 hφ1)
    (c1 : (⟨1, ![a]⟩ : Shape).ShapeCasts ⟨2, ![a, 1]⟩)
    (h0 : (⟨2, ![a, 1]⟩ : Shape).Reduces [0] ⟨1, ![1]⟩) (hφ0 : FKind.Formats FTy.f32) (hw0 : w0 = FKind.add.neutral .f32 hφ0)
    (c0 : (⟨1, ![1]⟩ : Shape).ShapeCasts ⟨2, ![1, 1]⟩) (u u' : Fin 1) :
    shapeCast ⟨2, ![1, 1]⟩ (multiReduction .add [0] ⟨1, ![1]⟩ (shapeCast ⟨2, ![a, 1]⟩ (multiReduction .add [1] ⟨1, ![a]⟩ v w1 h1 hφ1 hw1) c1) w0 h0 hφ0 hw0) c0 (ix2 u u')
      = ∑ r : Fin a, ∑ l : Fin b, v (ix2 r l) := by
  rw [column_apply, colSum_apply]
  refine Finset.sum_congr rfl fun r _ => ?_
  rw [column_apply, rowSum_apply]

/-! ## The payloads at an index -/

theorem sqrt_apply {s : Shape} {φ : FTy} (a : FVec Ideal s φ) (i : s.Idx) : sqrt a i = Ideal.sqrt (a i) := rfl
theorem absf_apply {s : Shape} {φ : FTy} (a : FVec Ideal s φ) (i : s.Idx) : absf a i = max (a i) (-(a i)) := rfl

/-- A one-row slice repeated down a first axis reads at (r, l) the sliced vector at (c, l). -/
theorem rowSlice_apply {α : Type} {n a b : Nat} (v : (⟨2, ![n, b]⟩ : Shape).Idx → α) (c : Fin n) (off : Fin 2 → Nat)
    (hoff : off = ![c.val, 0]) (h2 : (⟨2, ![n, b]⟩ : Shape).Slices off ⟨2, ![1, b]⟩)
    (h4 : (⟨2, ![1, b]⟩ : Shape).Broadcasts ⟨2, ![a, b]⟩) (r : Fin a) (l : Fin b) :
    broadcastTo ⟨2, ![a, b]⟩ (extractStridedSlice ⟨2, ![1, b]⟩ off v h2) h4 (ix2 r l) = v (ix2 c l) := by
  rw [rowSpread_apply, sliceRow_apply _ c off hoff]

/-- The first cloud's squared distances of the tile's points to all points. -/
theorem pay8_apply (x0 : Vec Ideal S1x3x1024 .f32) (t0 : Vec Ideal S1x3x256 .f32) (r : Fin 256) (l : Fin 1024) :
    k0_pay8 (F := Ideal) (k0_pay2 x0) t0 (ix2 r l)
      = sq (fun c => t0 (ix3 (0 : Fin 1) c r)) (fun c => x0 (ix3 (0 : Fin 1) c l)) := by
  unfold k0_pay8 k0_pay2
  simp only [addf_apply, mulf_apply, subf_apply, broadcast_apply,
    tileCol_apply t0 (0 : Fin 3) ![0, 0] rfl, tileCol_apply t0 (1 : Fin 3) ![1, 0] rfl, tileCol_apply t0 (2 : Fin 3) ![2, 0] rfl,
    blockRow_apply x0 (0 : Fin 3) ![0, 0] rfl, blockRow_apply x0 (1 : Fin 3) ![1, 0] rfl, blockRow_apply x0 (2 : Fin 3) ![2, 0] rfl]
  exact sq_chain _ Ideal.ofBits_zero_f32 (fun c => t0 (ix3 (0 : Fin 1) c r)) (fun c => x0 (ix3 (0 : Fin 1) c l))

/-- The second cloud's first two squares (the loop's region is cut after them). -/
theorem pay9_apply (x1 : Vec Ideal S1x3x1024 .f32) (t1 : Vec Ideal S1x3x256 .f32) (r : Fin 256) (l : Fin 1024) :
    k0_pay9 (F := Ideal) (k0_pay3 x1) t1 (ix2 r l)
      = (Ideal.ofBits .f32 0x00000000#32 + (t1 (ix3 (0 : Fin 1) 0 r) - x1 (ix3 (0 : Fin 1) 0 l)) * (t1 (ix3 (0 : Fin 1) 0 r) - x1 (ix3 (0 : Fin 1) 0 l)))
        + (t1 (ix3 (0 : Fin 1) 1 r) - x1 (ix3 (0 : Fin 1) 1 l)) * (t1 (ix3 (0 : Fin 1) 1 r) - x1 (ix3 (0 : Fin 1) 1 l)) := by
  unfold k0_pay9 k0_pay3 k0_pay7
  simp only [addf_apply, mulf_apply, subf_apply, broadcast_apply,
    tileCol_apply t1 (0 : Fin 3) ![0, 0] rfl, tileCol_apply t1 (1 : Fin 3) ![1, 0] rfl,
    blockRow_apply x1 (0 : Fin 3) ![0, 0] rfl, blockRow_apply x1 (1 : Fin 3) ![1, 0] rfl]
  rfl

/-- The second cloud's third tile row, as the column the region hands on. -/
theorem pay10_apply (t1 : Vec Ideal S1x3x256 .f32) (r : Fin 256) (u : Fin 1) :
    k0_pay10 (F := Ideal) t1 (ix2 r u) = t1 (ix3 (0 : Fin 1) 2 r) := by
  unfold k0_pay10 k0_pay7
  exact tileCol_apply' t1 (2 : Fin 3) ![2, 0] rfl _ _ _ r u

/-- ONE TRIP at the value's one entry: the carried entry plus the tile's double sum of discrepancies. -/
theorem trip_corner (x0 x1 : Vec Ideal S1x3x1024 .f32) (t0 t1 : Vec Ideal S1x3x256 .f32) (acc : FVec Ideal S1x1 .f32) :
    k0_pay5 (F := Ideal) x1 acc (k0_pay8 (k0_pay2 x0) t0) (k0_pay9 (k0_pay3 x1) t1) (k0_pay10 t1) (ix2 (0 : Fin 1) (0 : Fin 1))
      = acc (ix2 (0 : Fin 1) (0 : Fin 1))
        + ∑ r : Fin 256, ∑ l : Fin 1024,
            gapAt (fun c => t0 (ix3 (0 : Fin 1) c r)) (fun c => x0 (ix3 (0 : Fin 1) c l))
              (fun c => t1 (ix3 (0 : Fin 1) c r)) (fun c => x1 (ix3 (0 : Fin 1) c l)) := by
  unfold k0_pay5
  dsimp only
  refine congrArg (acc (ix2 (0 : Fin 1) (0 : Fin 1)) + ·) ?_
  refine (total_apply _ _ _ _ _ _ _ _ _ _ _ (0 : Fin 1) (0 : Fin 1)).trans ?_
  refine Finset.sum_congr rfl fun r _ => ?_
  refine Finset.sum_congr rfl fun l _ => ?_
  simp only [absf_apply, subf_apply, sqrt_apply, addf_apply, mulf_apply, broadcast_apply, pay8_apply, pay9_apply,
    spread_apply, pay10_apply]
  unfold k0_pay3
  simp only [blockRow_apply x1 (2 : Fin 3) ![2, 0] rfl]
  rw [sq_chain _ Ideal.ofBits_zero_f32 (fun c => t1 (ix3 (0 : Fin 1) c r)) (fun c => x1 (ix3 (0 : Fin 1) c l))]
  rfl

end Cert.KernelIdeal.TileSum

end
-- ==== Proof.PairwiseLossLawSums.lean ====
/-
  Two rearrangements of finite sums in the extended reals (a commutative monoid under addition):
  a sum over the 32 clouds is the sum over the first 16 plus the sum over the last 16, and a sum over the
  1024 points is the sum over 4 tiles of the sums over the 256 points of each tile, point 256 · t + r
  being point r of tile t.
-/
import proofs.«136141_j31954556682741_2_alg».proof.Proof.PairwiseLoss
import Mathlib.Algebra.BigOperators.Fin
import Mathlib.Logic.Equiv.Fin.Basic

noncomputable section

namespace Cert.PairwiseLoss

/-- The clouds split into a first and a second half of 16. -/
theorem sum_clouds_halves (f : Fin 32 → EReal) :
    (∑ β : Fin 32, f β) = (∑ b : Fin 16, f ⟨b.val, by omega⟩) + (∑ b : Fin 16, f ⟨16 + b.val, by omega⟩) :=
  Fin.sum_univ_add (a := 16) (b := 16) f

/-- The points split into 4 tiles of 256 consecutive points. -/
theorem sum_rows_tiles (f : Fin 1024 → EReal) :
    (∑ q : Fin 1024, f q) = ∑ t : Fin 4, ∑ r : Fin 256, f ⟨256 * t.val + r.val, by omega⟩ := by
  rw [← Fintype.sum_prod_type' (f := fun (t : Fin 4) (r : Fin 256) => f ⟨256 * t.val + r.val, by omega⟩)]
  refine (Fintype.sum_equiv (finProdFinEquiv (m := 4) (n := 256)) _ _ fun x => ?_).symm
  exact congrArg f (Fin.ext (by simp [finProdFinEquiv]; omega))

end Cert.PairwiseLoss

end
-- ==== Proof.KernelPointTotal.lean ====
/-
  What one grid point contributes, in closed form.

  Trip `k` of the loop reads columns `256k … 256k + 255` of a block, so tile point `r` of trip `k` is point
  `256k + r` of the cloud; the four trips' tile sums, added in order onto zero, are therefore the sum over ALL
  ordered pairs of points of the cloud of the discrepancy of the pair. The last payload divides that total by the
  number of pairs of distinct points and by ten and adds the quotient to the output block's corner entry. So a
  grid point leaves at the corner: the quotient itself after the block was zeroed (first point of a core's run),
  the previous corner plus the quotient otherwise.
-/
import proofs.«136141_j31954556682741_2_alg».proof.Proof.KernelPoint
import proofs.«136141_j31954556682741_2_alg».proof.Proof.TileSum
import proofs.«136141_j31954556682741_2_alg».proof.Proof.PairwiseLossLawSums

set_option maxRecDepth 16384

noncomputable section

open Idealize.ShloMosaic Idealize.ShloMosaic.TcCoe Idealize.SL.Sem

namespace Cert.KernelIdeal.PointTotal

open Cert.KernelIdeal Cert.KernelIdeal.Gen Idealize.ShloMosaic.ValueIdx
open Cert.KernelIdeal.PointValue Cert.KernelIdeal.TileSum

/-- Column `r` of the tile trip `k` loads is column `256k + r` of the block. -/
theorem tile_apply {F : FTy → Type} [FloatOps F] (x : Vec F S1x3x1024 .f32) (k : Fin k0_t1_loop.trips) (c : Fin 3) (r : Fin 256) :
    View.ld x (tileRect k) (ix3 (0 : Fin 1) c r)
      = x (ix3 (0 : Fin 1) c ⟨256 * k.val + r.val, by have h4 : k.val < 4 := lt_of_lt_of_eq k.isLt trips_eq; omega⟩) := by
  show x ((tileRect k).emb (ix3 (0 : Fin 1) c r)) = _
  congr 1
  funext a
  apply Fin.ext
  rw [Rect.emb_apply]
  match a with
  | ⟨0, _⟩ => show k0_off1 k 0 + 1 * 0 = 0; rw [k0_off1_eq]; rfl
  | ⟨1, _⟩ => show k0_off1 k 1 + 1 * c.val = c.val; rw [k0_off1_eq]; show 0 + 1 * c.val = c.val; omega
  | ⟨2, _⟩ => show k0_off1 k 2 + 1 * r.val = 256 * k.val + r.val; rw [k0_off1_eq]; show 256 * k.val + 1 * r.val = 256 * k.val + r.val; omega

/-- The discrepancy of points `q`, `l` of the cloud a pair of blocks holds. -/
def blockGap (x0 x1 : Vec Ideal S1x3x1024 .f32) (q l : Fin 1024) : EReal :=
  gapAt (fun c => x0 (ix3 (0 : Fin 1) c q)) (fun c => x0 (ix3 (0 : Fin 1) c l))
    (fun c => x1 (ix3 (0 : Fin 1) c q)) (fun c => x1 (ix3 (0 : Fin 1) c l))

/-- The point of the cloud that tile point `r` of trip `k` is. -/
abbrev tilePoint (k : Fin k0_t1_loop.trips) (r : Fin 256) : Fin 1024 :=
  ⟨256 * k.val + r.val, by have h4 : k.val < 4 := lt_of_lt_of_eq k.isLt trips_eq; omega⟩

/-- ONE TRIP on the tiles it loads: the carried entry plus the discrepancies of the tile's points against all. -/
theorem trip_at (x0 x1 : Vec Ideal S1x3x1024 .f32) (acc : FVec Ideal S1x1 .f32) (k : Fin k0_t1_loop.trips) :
    tripVal (F := Ideal) x0 x1 (View.ld x0 (tileRect k)) (View.ld x1 (tileRect k)) acc (ix2 (0 : Fin 1) (0 : Fin 1))
      = acc (ix2 (0 : Fin 1) (0 : Fin 1)) + ∑ r : Fin 256, ∑ l : Fin 1024, blockGap x0 x1 (tilePoint k r) l := by
  unfold tripVal
  rw [trip_corner]
  refine congrArg (acc (ix2 (0 : Fin 1) (0 : Fin 1)) + ·) ?_
  refine Finset.sum_congr rfl fun r _ => ?_
  refine Finset.sum_congr rfl fun l _ => ?_
  have e0 : (fun c : Fin 3 => View.ld x0 (tileRect k) (ix3 (0 : Fin 1) c r)) = fun c => x0 (ix3 (0 : Fin 1) c (tilePoint k r)) :=
    funext fun c => tile_apply x0 k c r
  have e1 : (fun c : Fin 3 => View.ld x1 (tileRect k) (ix3 (0 : Fin 1) c r)) = fun c => x1 (ix3 (0 : Fin 1) c (tilePoint k r)) :=
    funext fun c => tile_apply x1 k c r
  unfold blockGap
  rw [e0, e1]

/-- THE LOOP: its result's one entry is the sum of the discrepancies over all ordered pairs of points. -/
theorem loopVal_corner (x0 x1 : Vec Ideal S1x3x1024 .f32) :
    loopVal (F := Ideal) x0 x1 (ix2 (0 : Fin 1) (0 : Fin 1)) = ∑ q : Fin 1024, ∑ l : Fin 1024, blockGap x0 x1 q l := by
  unfold loopVal
  rw [trip_at, trip_at, trip_at, trip_at]
  have z : k0_pay4 (F := Ideal) (ix2 (0 : Fin 1) (0 : Fin 1)) = 0 := by
    show Ideal.ofBits .f32 0x00000000#32 = 0
    exact Ideal.ofBits_zero_f32
  rw [z, zero_add, PairwiseLoss.sum_rows_tiles, Fin.sum_univ_four]
  rfl

/-- The last payload: the old corner plus the loop's total divided by the number of pairs and by ten. -/
theorem pay6_apply (L : FVec Ideal S1x1 .f32) (old : Vec Ideal S1x1 .f32) (y : S1x1.Idx) :
    k0_pay6 (F := Ideal) L old y = old y + Ideal.div (Ideal.div (L y) PairwiseLoss.pairs) PairwiseLoss.ten := by
  unfold k0_pay6
  simp only [addf_apply, divf_apply, broadcast_apply, shapeCast_self]
  rfl

/-- A grid point's contribution: the cloud's total discrepancy over the number of pairs, over ten. -/
def pointTerm (x0 x1 : Vec Ideal S1x3x1024 .f32) : EReal :=
  Ideal.div (Ideal.div (∑ q : Fin 1024, ∑ l : Fin 1024, blockGap x0 x1 q l) PairwiseLoss.pairs) PairwiseLoss.ten

/-- A later point of a core's run adds its contribution to the corner. -/
theorem later_val (c : Dev nD) (i : grid0.Coords)
    (a2 : Memref sig .tc .vmem S1x3x1024 .f32) (h2 : a2.IsWhole) (a3 : Memref sig .tc .vmem S1x3x1024 .f32) (h3 : a3.IsWhole)
    (a4 : Memref sig .tc .vmem S8x128 .f32) (h4 : a4.IsWhole) (hc : ¬cond0_0 i)
    (x0 x1 : Vec Ideal S1x3x1024 .f32) (xo : Vec Ideal S8x128 .f32) :
    out0_B_2 (F := Ideal) c i a2 h2 a3 h3 a4 h4 hc x0 x1 xo (ix2 (0 : Fin 8) (0 : Fin 128))
      = xo (ix2 (0 : Fin 8) (0 : Fin 128)) + pointTerm x0 x1 := by
  rw [later_corner c i a2 h2 a3 h3 a4 h4 hc x0 x1 xo (ix2 (0 : Fin 1) (0 : Fin 1)), pay6_apply, loopVal_corner]
  show xo (corner.emb (ix2 (0 : Fin 1) (0 : Fin 1))) + _ = _
  rw [corner_emb]
  rfl

/-- The first point of a core's run leaves its contribution on a zeroed corner. -/
theorem first_val (c : Dev nD) (i : grid0.Coords)
    (a2 : Memref sig .tc .vmem S1x3x1024 .f32) (h2 : a2.IsWhole) (a3 : Memref sig .tc .vmem S1x3x1024 .f32) (h3 : a3.IsWhole)
    (a4 : Memref sig .tc .vmem S8x128 .f32) (h4 : a4.IsWhole) (hc : cond0_0 i)
    (x0 x1 : Vec Ideal S1x3x1024 .f32) :
    out0_A_2 (F := Ideal) c i a2 h2 a3 h3 a4 h4 hc x0 x1 (ix2 (0 : Fin 8) (0 : Fin 128))
      = 0 + pointTerm x0 x1 := by
  rw [first_corner c i a2 h2 a3 h3 a4 h4 hc x0 x1 (ix2 (0 : Fin 1) (0 : Fin 1)), pay6_apply, loopVal_corner]
  exact congrArg (· + pointTerm x0 x1) (show (Ideal.ofBits .f32 0x00000000#32 : EReal) = 0 from Ideal.ofBits_zero_f32)

end Cert.KernelIdeal.PointTotal

end
-- ==== Proof.KernelRunningSum.lean ====
/-
  The corner of a core's output block after each grid point: a running sum.

  The output block is kept in its staging buffer across the 16 points of a core's run (points `16c … 16c + 15`):
  the first point zeroes it and adds its contribution at the corner, every later point adds its own to what the
  point before left. So after the point at offset `j` of a run the corner holds zero plus the contributions of the
  run's points up to `j` — by induction on the offset, never on the grid.
-/
import proofs.«136141_j31954556682741_2_alg».proof.Proof.KernelPointTotal

set_option maxRecDepth 16384

noncomputable section

open Idealize.ShloMosaic Idealize.ShloMosaic.TcCoe Idealize.SL.Sem

namespace Cert.KernelIdeal.RunningSum

open Cert.KernelIdeal Cert.KernelIdeal.Gen Idealize.ShloMosaic.ValueIdx Cert.KernelIdeal.PointTotal

variable (m : (ℓ : Loc nD τ sig) → Buf (Elt Ideal) ℓ) (c : Dev nD)

/-- The contribution of grid point `n`: that of the cloud its two input blocks hold. -/
def term (n : ℕ) (h : n < cfg0.N) : EReal := pointTerm (iblk m c 0 ⟨n, h⟩) (iblk m c 1 ⟨n, h⟩)

/-- The same as a function of every natural number (zero past the grid), for sums over ranges. -/
def term' (n : ℕ) : EReal := if h : n < cfg0.N then term m c n h else 0

/-- The corner of the staging buffer after point `n`. -/
def cornerAt (n : ℕ) (h : n < cfg0.N) : EReal := outsAt0 m c n h (ix2 (0 : Fin 8) (0 : Fin 128))

theorem cornerAt_first (n : ℕ) (h : n < cfg0.N) (h0 : n % 16 = 0) : cornerAt m c n h = 0 + term m c n h :=
  (congrFun (outsAt0_A m c ⟨n, h⟩ h0) _).trans (first_val c _ _ _ _ _ _ _ _ _ _)

theorem cornerAt_later (n : ℕ) (h : n + 1 < cfg0.N) (h0 : ¬(n + 1) % 16 = 0) :
    cornerAt m c (n + 1) h = cornerAt m c n (Nat.lt_of_succ_lt h) + term m c (n + 1) h :=
  (congrFun (outsAt0_B m c ⟨n + 1, h⟩ h0) _).trans (later_val c _ _ _ _ _ _ _ _ _ _ _)

/-- After the point at offset `j` of the run starting at `b` (a multiple of 16) the corner holds zero plus the
    contributions of points `b … b + j`. -/
theorem cornerAt_run (b : ℕ) (hb : b % 16 = 0) :
    ∀ (j : ℕ), j < 16 → ∀ (h : b + j < cfg0.N), cornerAt m c (b + j) h = 0 + ∑ s ∈ Finset.range (j + 1), term' m c (b + s)
  | 0, _, h => by
    rw [Finset.sum_range_one]
    show cornerAt m c b h = 0 + term' m c (b + 0)
    rw [cornerAt_first m c b h hb]
    unfold term'
    rw [dif_pos h]
    rfl
  | j + 1, hj, h => by
    have hne : ¬(b + j + 1) % 16 = 0 := by omega
    have ih := cornerAt_run b hb j (by omega) (Nat.lt_of_succ_lt h)
    show cornerAt m c (b + j + 1) h = _
    rw [cornerAt_later m c (b + j) h hne, ih, Finset.sum_range_succ _ (j + 1), add_assoc]
    congr 2
    unfold term'
    rw [dif_pos (show b + (j + 1) < cfg0.N from h)]
    rfl

end Cert.KernelIdeal.RunningSum

end
-- ==== Proof.KernelHostBlocks.lean ====
/-
  The input blocks of the region, read back to the arguments.

  Before the region each argument, an array of shape [32, 1024, 3] (cloud, point, axis), is transposed to
  [32, 3, 1024] (cloud, axis, point). The grid has 32 points; point t = 16 · core + cloud-on-core stages
  block t of each transposed array, a [1, 3, 1024] slab: the block's index along the first axis is
  16 · (t / 16) + t % 16 = t and 0 along the other two, and a block's coordinate in its array is
  index × size + the coordinate inside the block. So entry (0, a, q) of point t's block is entry (t, a, q)
  of the transposed array, which is entry (t, q, a) of the argument.
-/
import proofs.«136141_j31954556682741_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.HostSide

open Cert.KernelIdeal Cert.KernelIdeal.Gen
open Idealize.ShloMosaic.ValueIdx Idealize.ShloMosaic.Tactic

variable (m : (ℓ : Loc nD τ sig) → Buf (Elt Ideal) ℓ)

/-- Window 0's block index at point t: t along the clouds, 0 along the other two axes. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Window 1's block index at point t: the same. -/
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- What the region finds in the first window's array: the first argument with its last two axes swapped. -/
theorem V_main_v0 (c : Dev nD) :
    (V m c main_v0 : S32x3x1024.Idx → EReal)
      = transpose S32x3x1024 [0, 2, 1] (m ((c : Thread nD τ).loc main_arg0)) Facts₀.transposes_S32x1024x3_S32x3x1024_0_2_1 := by
  show StableHlo.after hostOps0 (fun b => m (c, b)) (Proc.devRef .tc main_v0) = _
  after_results

/-- What the region finds in the second window's array: the second argument with its last two axes swapped. -/
theorem V_main_v1 (c : Dev nD) :
    (V m c main_v1 : S32x3x1024.Idx → EReal)
      = transpose S32x3x1024 [0, 2, 1] (m ((c : Thread nD τ).loc main_arg1)) Facts₀.transposes_S32x1024x3_S32x3x1024_0_2_1 := by
  show StableHlo.after hostOps0 (fun b => m (c, b)) (Proc.devRef .tc main_v1) = _
  after_results

/-- Entry (0, a, q) of the first window's block at point t is entry (t, q, a) of the first argument. -/
theorem iblk0_apply (c : Dev nD) (t : Fin cfg0.N) (cc : Fin 3) (j : Fin 1024) :
    (iblk m c 0 t : Vec Ideal S1x3x1024 .f32) (ix3 (0 : Fin 1) cc j)
      = m ((c : Thread nD τ).loc main_arg0) (ix3 (⟨t.val, lt_of_lt_of_eq t.isLt N_0⟩ : Fin 32) j cc) := by
  unfold iblk
  rw [View.read_apply]
  show (V m c main_v0 : S32x3x1024.Idx → EReal) _ = _
  rw [V_main_v0]
  refine transpose_apply [0, 2, 1] _ _ _ (ix3 (⟨t.val, lt_of_lt_of_eq t.isLt N_0⟩ : Fin 32) j cc) (fun b => ?_)
  match b with
  | ⟨0, _⟩ =>
    show t.val = win0_0.index t 0 * 1 + 1 * 0
    rw [(index0 t).1]; omega
  | ⟨1, _⟩ =>
    show cc.val = win0_0.index t 1 * 3 + 1 * cc.val
    rw [(index0 t).2.1]; omega
  | ⟨2, _⟩ =>
    show j.val = win0_0.index t 2 * 1024 + 1 * j.val
    rw [(index0 t).2.2]; omega

/-- Entry (0, a, q) of the second window's block at point t is entry (t, q, a) of the second argument. -/
theorem iblk1_apply (c : Dev nD) (t : Fin cfg0.N) (cc : Fin 3) (j : Fin 1024) :
    (iblk m c 1 t : Vec Ideal S1x3x1024 .f32) (ix3 (0 : Fin 1) cc j)
      = m ((c : Thread nD τ).loc main_arg1) (ix3 (⟨t.val, lt_of_lt_of_eq t.isLt N_0⟩ : Fin 32) j cc) := by
  unfold iblk
  rw [View.read_apply]
  show (V m c main_v1 : S32x3x1024.Idx → EReal) _ = _
  rw [V_main_v1]
  refine transpose_apply [0, 2, 1] _ _ _ (ix3 (⟨t.val, lt_of_lt_of_eq t.isLt N_0⟩ : Fin 32) j cc) (fun b => ?_)
  match b with
  | ⟨0, _⟩ =>
    show t.val = win0_1.index t 0 * 1 + 1 * 0
    rw [(index1 t).1]; omega
  | ⟨1, _⟩ =>
    show cc.val = win0_1.index t 1 * 3 + 1 * cc.val
    rw [(index1 t).2.1]; omega
  | ⟨2, _⟩ =>
    show j.val = win0_1.index t 2 * 1024 + 1 * j.val
    rw [(index1 t).2.2]; omega

end Cert.KernelIdeal.HostSide

end
-- ==== Proof.KernelHostTail.lean ====
/-
  The result of the program from the region's output array.

  After the region the program reads two entries of the region's [16, 128] output array — entry (0, 0),
  where the first core leaves its partial loss, and entry (8, 0), where the second core leaves its own —
  each as a [1, 1] slice reshaped to a scalar, adds them, and divides the sum by the constant 32 (the
  number of clouds). So the scalar result is (out(0, 0) + out(8, 0)) / 32.
-/
import proofs.«136141_j31954556682741_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.HostSide

open Cert.KernelIdeal Cert.KernelIdeal.Gen
open Idealize.ShloMosaic.ValueIdx Idealize.ShloMosaic.Tactic

variable (m : (ℓ : Loc nD τ sig) → Buf (Elt Ideal) ℓ)

/-- The region's output array on core `c` once every grid point has run. -/
abbrev outArr (c : Dev nD) : S16x128.Idx → EReal := (dats (F := Ideal) m 0 c).arrAt 2 cfg0.N

/-- A [1, 1] slice of a [16, 128] array starting at (r, 0), reshaped to a scalar, is the array's entry
    (r, 0): the scalar's one entry and the slice's one entry both sit at row-major position 0, and the
    slice's entry (0, 0) is the array's entry (r + 0, 0 + 0). -/
theorem slice_reshape_apply (x : S16x128.Idx → EReal) (r : Fin 16) (off : Fin 2 → Nat) (hoff : off = ![r.val, 0])
    (h : S16x128.Slices off S1x1) (h' : S1x1.ShapeCasts S_) (i : S_.Idx) :
    shapeCast S_ (extractStridedSlice S1x1 off x h) h' i = x (ix2 r (0 : Fin 128)) := by
  subst hoff
  refine (shapeCast_apply _ h' i (ix2 (0 : Fin 1) (0 : Fin 1)) ?_).trans ?_
  · exact (Fin.val_eq_zero _).trans (Fin.val_eq_zero _).symm
  · exact extractStridedSlice_apply _ x h _ (ix2 r (0 : Fin 128)) (fun a => match a with
      | ⟨0, _⟩ => (Nat.add_zero _).symm
      | ⟨1, _⟩ => rfl)

/-- The program's scalar result: the two cores' partial losses, read off the output array at (0, 0) and
    (8, 0), added and divided by 32. -/
theorem tail_result (c : Dev nD) :
    Pipeline.afterTail₀ cfgs (dats (F := Ideal) m) 0 (V0 m) [hostOps1] c main_v8
      = fun _ => Ideal.div (outArr m c (ix2 (0 : Fin 16) (0 : Fin 128)) + outArr m c (ix2 (8 : Fin 16) (0 : Fin 128)))
          (Ideal.ofBits .f32 0x42000000#32) := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v2)
        = outArr m c from Pipeline.withArrays_arr spec0 launch0.win.arr_inj c _ _ 2]
  funext i
  show Ideal.div (shapeCast S_ (extractStridedSlice S1x1 ![0, 0] (outArr m c) _) _ i
      + shapeCast S_ (extractStridedSlice S1x1 ![8, 0] (outArr m c) _) _ i) (Ideal.ofBits .f32 0x42000000#32) = _
  rw [slice_reshape_apply (outArr m c) 0 ![0, 0] rfl, slice_reshape_apply (outArr m c) 8 ![8, 0] rfl]

end Cert.KernelIdeal.HostSide

end
-- ==== Proof.KernelWriteBack.lean ====
/-
  The two entries of the kernel's result array that the program's tail reads.

  The kernel's one output is a `[16, 128]` array written in two row blocks of `[8, 128]`: the grid has
  `2 · 16 = 32` points, point `t` belongs to core `t / 16`, and the output's block at `t` is row block `t / 16`.
  A core accumulates into its block over its sixteen points and the block is written back only after the last of
  them, so the only write-backs are at `t = 15` (rows 0–7) and `t = 31` (rows 8–15). Those two row ranges are
  disjoint, so nothing overwrites what either write-back wrote: the array's entry `(0, 0)` ends as entry `(0, 0)` of
  what the body left after point 15, and its entry `(8, 0)` as entry `(0, 0)` of what it left after point 31.
-/
import proofs.«136141_j31954556682741_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.WriteBack

open Cert.KernelIdeal Cert.KernelIdeal.Gen
open Idealize.ShloMosaic Idealize.ShloMosaic.TcCoe Idealize.SL.Sem Idealize.ShloMosaic.ValueIdx
open Idealize.ShloMosaic.Pipeline (Dat Window)

variable {F : FTy → Type} [FloatOps F]
variable (m : (ℓ : Loc nD τ sig) → Buf (Elt F) ℓ)

/-- The output's block index at point `t`: row block `t / 16`, column block `0` (decided once over the grid). -/
theorem idx_facts : ∀ t : Fin cfg0.N, win0_2.index t 0 = t.val / 16 ∧ win0_2.index t 1 = 0 :=
  (by decide +kernel : ∀ t : Fin grid0.N, win0_2.index t 0 = t.val / 16 ∧ win0_2.index t 1 = 0)

/-- A grid point is below 32. -/
theorem lt32 (t : Fin cfg0.N) : t.val < 32 := lt_of_lt_of_eq t.isLt (show cfg0.N = 32 from N_0)

/-- Two distinct points that write the output back write disjoint row blocks: such points are 15 and 31, whose row
    blocks are `0` and `1`. -/
theorem flush_disjoint (t t' : Fin cfg0.N) (hf : (cfg0.win 2).flush t = true) (hf' : (cfg0.win 2).flush t' = true)
    (hne : t ≠ t') : Disjoint ((cfg0.win 2).blk t).view.set ((cfg0.win 2).blk t').view.set := by
  have h1 : t.val % 16 = 15 := (flush0_2 t).mp hf
  have h2 : t'.val % 16 = 15 := (flush0_2 t').mp hf'
  have hv : t.val ≠ t'.val := fun e => hne (Fin.ext e)
  have b1 := lt32 t
  have b2 := lt32 t'
  show Disjoint ((View.whole main_v2).slice (win0_2.rect t)).set ((View.whole main_v2).slice (win0_2.rect t')).set
  rw [View.set_slice_whole, View.set_slice_whole]
  refine Rect.unit_disjoint 0 ?_
  show win0_2.index t 0 * 8 + 8 ≤ win0_2.index t' 0 * 8 ∨ win0_2.index t' 0 * 8 + 8 ≤ win0_2.index t 0 * 8
  rw [(idx_facts t).1, (idx_facts t').1]
  omega

/-- Entry `(0, 0)` of the block written back at point `t` is entry `(8 · (t / 16), 0)` of the array. -/
theorem emb_origin (t : Fin cfg0.N) (r : Fin 16) (hr : r.val = t.val / 16 * 8) :
    ((cfg0.win 2).blk t).view.emb (ix2 (0 : Fin 8) (0 : Fin 128)) = ix2 r (0 : Fin 128) := by
  funext a
  refine Fin.ext ?_
  show ((win0_2.rect t).emb (ix2 (0 : Fin 8) (0 : Fin 128)) a : ℕ) = _
  rw [Window.rect_emb_val]
  match a with
  | ⟨0, _⟩ =>
    show win0_2.index t 0 * 8 + 0 = r.val
    rw [(idx_facts t).1, hr, Nat.add_zero]
  | ⟨1, _⟩ =>
    show win0_2.index t 1 * 128 + 0 = 0
    rw [(idx_facts t).2]

/-- So, for a point `t` that writes the output back, the array ends holding at `(8 · (t / 16), 0)` the entry `(0, 0)`
    of what the body left in the staging buffer after `t`. -/
theorem out_at (c : Dev nD) (t : Fin cfg0.N) (hf : (cfg0.win 2).flush t = true) (r : Fin 16)
    (hr : r.val = t.val / 16 * 8) :
    ((dats m 0 c).arrAt 2 cfg0.N) (ix2 r (0 : Fin 128))
      = outsAt0 m c t.val t.isLt (ix2 (0 : Fin 8) (0 : Fin 128)) := by
  have h := (dats m 0 c).arrAt_emb_eq_flushed 2 flush_disjoint t hf (ix2 (0 : Fin 8) (0 : Fin 128))
  rw [emb_origin t r hr] at h
  rw [h, cast_eq]
  show (dats m 0 c).after 2 t _ = _
  rw [after0_2]
  rfl

/-- The array's entry `(0, 0)`: entry `(0, 0)` of the staging buffer after point 15. -/
theorem out_lo (c : Dev nD) :
    ((dats m 0 c).arrAt 2 cfg0.N) (ix2 (0 : Fin 16) (0 : Fin 128))
      = outsAt0 m c 15 (by rw [show cfg0.N = 32 from N_0]; decide) (ix2 (0 : Fin 8) (0 : Fin 128)) :=
  out_at m c ⟨15, by rw [show cfg0.N = 32 from N_0]; decide⟩ ((flush0_2 _).mpr rfl) 0 rfl

/-- The array's entry `(8, 0)`: entry `(0, 0)` of the staging buffer after point 31. -/
theorem out_hi (c : Dev nD) :
    ((dats m 0 c).arrAt 2 cfg0.N) (ix2 (8 : Fin 16) (0 : Fin 128))
      = outsAt0 m c 31 (by rw [show cfg0.N = 32 from N_0]; decide) (ix2 (0 : Fin 8) (0 : Fin 128)) :=
  out_at m c ⟨31, by rw [show cfg0.N = 32 from N_0]; decide⟩ ((flush0_2 _).mpr rfl) 8 rfl

end Cert.KernelIdeal.WriteBack

end
-- ==== Proof.KernelLoss.lean ====
/-
  The idealized kernel's result is the loss with every pair summed.

  Assembled from the parts: the program's tail returns (corner of block 0 + corner of block 1) / 32; block `c`'s
  corner after the run is what the last point of core `c`'s run left there, zero plus the contributions of the
  run's 16 points; grid point `n` holds cloud `n` of each argument (its blocks are rows of the transposed
  arguments), so its contribution is that cloud's total discrepancy over the number of pairs, over ten; and the sum
  over the 32 clouds is the sum over the two runs.
-/
import proofs.«136141_j31954556682741_2_alg».proof.Proof.KernelRunningSum
import proofs.«136141_j31954556682741_2_alg».proof.Proof.KernelHostBlocks
import proofs.«136141_j31954556682741_2_alg».proof.Proof.KernelHostTail
import proofs.«136141_j31954556682741_2_alg».proof.Proof.KernelWriteBack
import proofs.«136141_j31954556682741_2_alg».proof.Proof.PairwiseLossLawSums

set_option maxRecDepth 16384

noncomputable section

open Idealize.ShloMosaic Idealize.ShloMosaic.TcCoe Idealize.SL.Sem

namespace Cert.KernelIdeal.Loss

open Cert.KernelIdeal Cert.KernelIdeal.Gen Idealize.ShloMosaic.ValueIdx
open Cert.KernelIdeal.PointTotal Cert.KernelIdeal.TileSum Cert.KernelIdeal.RunningSum

variable (m : (ℓ : Loc nD τ sig) → Buf (Elt Ideal) ℓ) (c : Dev nD)

/-- The two argument arrays as batches of clouds. -/
abbrev predClouds : PairwiseLoss.Clouds := PairwiseLoss.ofArray (m ((c : Thread nD τ).loc main_arg0))
abbrev gtClouds : PairwiseLoss.Clouds := PairwiseLoss.ofArray (m ((c : Thread nD τ).loc main_arg1))

/-- Cloud `β`'s share of the loss before the mean over clouds. -/
def perCloud (β : Fin 32) : EReal :=
  Ideal.div (Ideal.div (PairwiseLoss.total (predClouds m c) (gtClouds m c) β) PairwiseLoss.pairs) PairwiseLoss.ten

/-- Grid point `n` contributes cloud `n`'s share: its blocks are cloud `n` of the two arguments. -/
theorem term_eq (n : ℕ) (h : n < cfg0.N) : term m c n h = perCloud m c ⟨n, lt_of_lt_of_eq h N_0⟩ := by
  unfold term pointTerm perCloud PairwiseLoss.total
  refine congrArg (fun z => Ideal.div (Ideal.div z PairwiseLoss.pairs) PairwiseLoss.ten) ?_
  refine Finset.sum_congr rfl fun q _ => ?_
  refine Finset.sum_congr rfl fun l _ => ?_
  have e0 (j : Fin 1024) : (fun cc : Fin 3 => (iblk m c 0 ⟨n, h⟩ : Vec Ideal S1x3x1024 .f32) (ix3 (0 : Fin 1) cc j))
      = predClouds m c ⟨n, lt_of_lt_of_eq h N_0⟩ j := funext fun cc => HostSide.iblk0_apply m c ⟨n, h⟩ cc j
  have e1 (j : Fin 1024) : (fun cc : Fin 3 => (iblk m c 1 ⟨n, h⟩ : Vec Ideal S1x3x1024 .f32) (ix3 (0 : Fin 1) cc j))
      = gtClouds m c ⟨n, lt_of_lt_of_eq h N_0⟩ j := funext fun cc => HostSide.iblk1_apply m c ⟨n, h⟩ cc j
  unfold blockGap
  rw [gap_eq, e0 q, e0 l, e1 q, e1 l]

theorem term'_eq (s : ℕ) (hs : s < 32) : term' m c s = perCloud m c ⟨s, hs⟩ := by
  unfold term'
  rw [dif_pos (show s < cfg0.N from lt_of_lt_of_eq hs N_0.symm), term_eq]

/-- A run's 16 contributions as a sum over `Fin 16`. -/
theorem run_sum (b : ℕ) (hb : b + 16 ≤ 32) :
    (∑ s ∈ Finset.range 16, term' m c (b + s)) = ∑ j : Fin 16, perCloud m c ⟨b + j.val, by have := j.isLt; omega⟩ := by
  rw [← Fin.sum_univ_eq_sum_range (fun s => term' m c (b + s)) 16]
  exact Finset.sum_congr rfl fun j _ => term'_eq m c (b + j.val) (by have := j.isLt; omega)

/-- The first run's 16 contributions (the run starting at point 0). -/
theorem run_sum0 :
    (∑ s ∈ Finset.range 16, term' m c (0 + s)) = ∑ j : Fin 16, perCloud m c ⟨j.val, by have := j.isLt; omega⟩ := by
  simp only [Nat.zero_add]
  rw [← Fin.sum_univ_eq_sum_range (fun s => term' m c s) 16]
  exact Finset.sum_congr rfl fun j _ => term'_eq m c j.val (by have := j.isLt; omega)

/-- The all-pairs loss is the clouds' shares summed and divided by the number of clouds. -/
theorem lossFull_eq :
    PairwiseLoss.lossFull (predClouds m c) (gtClouds m c)
      = Ideal.div (∑ β : Fin 32, perCloud m c β) (Ideal.ofBits .f32 0x42000000#32) := rfl

/-- THE KERNEL'S RESULT: the loss with every ordered pair summed, of the two arguments. -/
theorem value :
    Pipeline.afterTail₀ cfgs (dats (F := Ideal) m) 0 (V0 m) [hostOps1] c main_v8
      = fun _ => PairwiseLoss.lossFull (predClouds m c) (gtClouds m c) := by
  rw [HostSide.tail_result]
  funext _
  have h15 : 15 < cfg0.N := by rw [show cfg0.N = 32 from N_0]; decide
  have h31 : 31 < cfg0.N := by rw [show cfg0.N = 32 from N_0]; decide
  have lo : cornerAt m c 15 h15 = 0 + ∑ s ∈ Finset.range 16, term' m c (0 + s) := cornerAt_run m c 0 (by decide) 15 (by decide) h15
  have hi : cornerAt m c 31 h31 = 0 + ∑ s ∈ Finset.range 16, term' m c (16 + s) := cornerAt_run m c 16 (by decide) 15 (by decide) h31
  have e_lo : HostSide.outArr m c (ix2 (0 : Fin 16) (0 : Fin 128)) = cornerAt m c 15 h15 := WriteBack.out_lo m c
  have e_hi : HostSide.outArr m c (ix2 (8 : Fin 16) (0 : Fin 128)) = cornerAt m c 31 h31 := WriteBack.out_hi m c
  rw [e_lo, e_hi, lo, hi, zero_add, zero_add, run_sum0 m c, run_sum m c 16 (by decide), lossFull_eq, PairwiseLoss.sum_clouds_halves]

end Cert.KernelIdeal.Loss

end
-- ==== Proof.RefLossDist.lean ====
/-
  The reference's distance matrices, entry by entry.

  For a batch of clouds `x` the reference forms the array of coordinate differences `x[β, q, c] − x[β, k, c]` over
  `(β, q, k, c)`, squares it, sums the three axes' squares, adds `ε` and takes the square root. Read at the entry
  `(β, q, k)` this is the regularised distance `√(Σ_c (x β q c − x β k c)² + ε)` of the specification. The same
  operations are applied once to the first argument and once to the second.
-/
import proofs.«136141_j31954556682741_2_alg».proof.Proof.Gen.ReferenceIdeal.Read
import proofs.«136141_j31954556682741_2_alg».proof.Proof.PairwiseLoss

noncomputable section

open scoped BigOperators

namespace Cert.RefLoss

open Cert.ReferenceIdeal Cert.ReferenceIdeal.Gen Cert.ReferenceIdeal.Read Cert.PairwiseLoss
open Idealize.ShloMosaic Idealize.ShloMosaic.ValueIdx

/-- The first argument's difference array at `(β, q, k, c)`: point `q` minus point `k` on axis `c`. -/
theorem diff0_apply (x0 : (⟨S32x1024x3, .f32⟩ : BufTy).Contents (Elt Ideal)) (β : Fin 32) (q k : Fin 1024) (c : Fin 3) :
    val_main_v4 (F := Ideal) x0 (ix4 β q k c) = x0 (ix3 β q c) - x0 (ix3 β k c) := by
  have e0 : idx_main_v0 (idx_main_v2 (ix4 β q k c)) = ix3 β q c :=
    funext fun a => Fin.ext (by match a with | ⟨0, _⟩ => rfl | ⟨1, _⟩ => rfl | ⟨2, _⟩ => rfl)
  have e1 : idx_main_v1 (idx_main_v3 (ix4 β q k c)) = ix3 β k c :=
    funext fun a => Fin.ext (by match a with | ⟨0, _⟩ => rfl | ⟨1, _⟩ => rfl | ⟨2, _⟩ => rfl)
  rw [val_main_v4_apply, val_main_v2_apply, val_main_v3_apply, val_main_v0_apply, val_main_v1_apply, e0, e1]
  rfl

/-- The second argument's difference array at `(β, q, k, c)`. -/
theorem diff1_apply (x1 : (⟨S32x1024x3, .f32⟩ : BufTy).Contents (Elt Ideal)) (β : Fin 32) (q k : Fin 1024) (c : Fin 3) :
    val_main_v14 (F := Ideal) x1 (ix4 β q k c) = x1 (ix3 β q c) - x1 (ix3 β k c) := by
  have e0 : idx_main_v10 (idx_main_v12 (ix4 β q k c)) = ix3 β q c :=
    funext fun a => Fin.ext (by match a with | ⟨0, _⟩ => rfl | ⟨1, _⟩ => rfl | ⟨2, _⟩ => rfl)
  have e1 : idx_main_v11 (idx_main_v13 (ix4 β q k c)) = ix3 β k c :=
    funext fun a => Fin.ext (by match a with | ⟨0, _⟩ => rfl | ⟨1, _⟩ => rfl | ⟨2, _⟩ => rfl)
  rw [val_main_v14_apply, val_main_v12_apply, val_main_v13_apply, val_main_v10_apply, val_main_v11_apply, e0, e1]
  rfl

/-- The first argument's distance matrix at `(β, q, k)` is the regularised distance of the specification. -/
theorem dist0_apply (x0 : (⟨S32x1024x3, .f32⟩ : BufTy).Contents (Elt Ideal)) (β : Fin 32) (q k : Fin 1024) :
    val_main_v9 (F := Ideal) x0 (ix3 β q k) = dist (ofArray x0) β q k := by
  have e6 : ∀ c : Fin 3, idx_main_v6 (ix3 β q k) c = ix4 β q k c := fun c =>
    funext fun a => Fin.ext (by match a with | ⟨0, _⟩ => rfl | ⟨1, _⟩ => rfl | ⟨2, _⟩ => rfl | ⟨3, _⟩ => rfl)
  rw [val_main_v9_apply, val_main_v8_apply, val_main_v6_apply, val_main_v7_apply, val_main_cst_0_apply,
    val_main_cst_apply]
  simp only [e6, val_main_v5_apply, diff0_apply, Ideal.hostUnary_sqrt_def, Ideal.addf_def, Ideal.mulf_def,
    Ideal.ofBits_def, Ideal.ofBits_zero_f32, zero_add]
  rfl

/-- The second argument's distance matrix at `(β, q, k)` likewise. -/
theorem dist1_apply (x1 : (⟨S32x1024x3, .f32⟩ : BufTy).Contents (Elt Ideal)) (β : Fin 32) (q k : Fin 1024) :
    val_main_v19 (F := Ideal) x1 (ix3 β q k) = dist (ofArray x1) β q k := by
  have e16 : ∀ c : Fin 3, idx_main_v16 (ix3 β q k) c = ix4 β q k c := fun c =>
    funext fun a => Fin.ext (by match a with | ⟨0, _⟩ => rfl | ⟨1, _⟩ => rfl | ⟨2, _⟩ => rfl | ⟨3, _⟩ => rfl)
  rw [val_main_v19_apply, val_main_v18_apply, val_main_v16_apply, val_main_v17_apply, val_main_cst_2_apply,
    val_main_cst_1_apply]
  simp only [e16, val_main_v15_apply, diff1_apply, Ideal.hostUnary_sqrt_def, Ideal.addf_def, Ideal.mulf_def,
    Ideal.ofBits_def, Ideal.ofBits_zero_f32, zero_add]
  rfl

end Cert.RefLoss

end
-- ==== Proof.RefLossSums.lean ====
/-
  Finite sums over the index sets of arrays, by coordinates.

  An index of a rank-1 or rank-3 array is its tuple of coordinates, so a sum over all indices is the iterated sum
  over the coordinates. When the second and third axes of a rank-3 array are summed away, the indices that land on
  the result's entry `β` are exactly those whose first coordinate is `β`: the sum over that fibre is the double sum
  over the other two coordinates. An integer reduction whose body is addition is, by commutativity and associativity
  of addition of words, the initial word plus the sum of the fibre. Last, a counting fact over any finite type: summing
  `1` over the ordered pairs of distinct elements and `0` over the diagonal gives `n · (n − 1)`, `n` the number of
  elements, in every semiring.
-/
import Idealize.ShloMosaic.PureOps.Ideal.Laws
import Idealize.ShloMosaic.Lib.ValueIdx
import Mathlib.Data.BitVec

noncomputable section

open scoped BigOperators

namespace Cert.RefLoss

open Idealize.ShloMosaic Idealize.ShloMosaic.ValueIdx

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Summing away axes 1 and 2 of a rank-3 array: an index lands on the result's entry `β` exactly when its first
    coordinate is `β`. -/
theorem drop12_eq_iff {n0 n1 n2 : Nat} (h : (⟨3, ![n0, n1, n2]⟩ : Shape).ReducesTo [1, 2] ⟨1, ![n0]⟩)
    (a : Fin n0) (q : Fin n1) (k : Fin n2) (β : Fin n0) : h.drop (ix3 a q k) = ix1 β ↔ a = β := by
  have hv : (h.drop (ix3 a q k) 0 : Nat) = a.val := rfl
  constructor
  · intro e
    refine Fin.ext ?_
    rw [← hv, e]
    rfl
  · intro e
    funext d
    match d with
    | ⟨0, _⟩ => exact Fin.ext (by rw [← e]; exact hv)

/-- So the sum over the fibre of `β` is the double sum over the second and third coordinates. -/
theorem sum_fibre12 {M : Type*} [AddCommMonoid M] {n0 n1 n2 : Nat}
    (h : (⟨3, ![n0, n1, n2]⟩ : Shape).ReducesTo [1, 2] ⟨1, ![n0]⟩) (x : (⟨3, ![n0, n1, n2]⟩ : Shape).Idx → M) (β : Fin n0) :
    ∑ i ∈ Finset.univ.filter (fun i => h.drop i = ix1 β), x i = ∑ q : Fin n1, ∑ k : Fin n2, x (ix3 β q k) := by
  rw [Finset.sum_filter, sum_idx3]
  rw [Finset.sum_eq_single β]
  · refine Finset.sum_congr rfl fun q _ => Finset.sum_congr rfl fun k _ => ?_
    rw [if_pos ((drop12_eq_iff h β q k β).2 rfl)]
  · intro a _ hne
    refine Finset.sum_eq_zero fun q _ => Finset.sum_eq_zero fun k _ => ?_
    rw [if_neg fun e => hne ((drop12_eq_iff h a q k β).1 e)]
  · intro hβ
    exact absurd (Finset.mem_univ β) hβ

/-- An integer reduction on the host whose body is addition: at each result index, the initial word plus the sum of
    the operand over the indices that land there (addition of words commutes and associates, so the order of the fold
    is immaterial). -/
theorem hostReduce_addi_eq_sum {s t u : Shape} {axes : List (Fin s.rank)} {w : Nat} (x : s.Idx → BitVec w)
    (init : u.Idx → BitVec w) (h : s.ReducesTo axes t) (hu : 0 < u.numel) (j : t.Idx) :
    Host.reduce IntOp.addi x init h hu j
      = init (Shape.Idx.first hu) + ∑ i ∈ Finset.univ.filter (fun i => h.drop i = j), x i := by
  rw [Host.reduce_eq_fold]
  induction (Finset.univ.filter fun i => h.drop i = j) using Finset.cons_induction with
  | empty => simp
  | cons a S ha ih =>
    rw [Finset.fold_cons, Finset.sum_cons, ih]
    show x a + _ = _
    rw [add_left_comm]

/-- Over a finite type with `n` elements, `1` summed over the ordered pairs of distinct elements (and `0` over the
    diagonal) is `n · (n − 1)`: each row has `n − 1` off-diagonal entries. -/
theorem sum_offDiag_one {ι R : Type*} [Fintype ι] [DecidableEq ι] [NonAssocSemiring R] :
    ∑ q : ι, ∑ k : ι, (if q = k then (0 : R) else 1) = ((Fintype.card ι * (Fintype.card ι - 1) : ℕ) : R) := by
  have inner : ∀ q : ι, ∑ k : ι, (if q = k then (0 : R) else 1) = ((Fintype.card ι - 1 : ℕ) : R) := by
    intro q
    have flip : ∀ k : ι, (if q = k then (0 : R) else 1) = if q ≠ k then 1 else 0 := fun k => by
      by_cases e : q = k <;> simp [e]
    simp only [flip]
    rw [Finset.sum_boole, Finset.filter_ne, Finset.card_erase_of_mem (Finset.mem_univ q), Finset.card_univ]
  simp only [inner]
  rw [Finset.sum_const, Finset.card_univ, nsmul_eq_mul, Nat.cast_mul]

end Cert.RefLoss

end
-- ==== Proof.RefLossMask.lean ====
/-
  The reference's mask and its count.

  The mask at `(β, q, k)` is "the second distance matrix's entry is not a NaN, and `q ≠ k`". Over the extended reals
  nothing is a NaN: an entry compared with itself for inequality answers "no", so the first conjunct is always true
  and the mask is `q ≠ k`. The test `q = k` is computed as the equality of two arrays of 32-bit words holding the row
  and the column number; row and column numbers are below 1024, far below 2³², so two of them are equal as words
  exactly when they are equal as numbers. The count of the mask over a cloud's pairs, an integer sum of the mask
  widened to 32 bits, is therefore the number of ordered pairs of distinct points among 1024: 1024 · 1023 = 1047552,
  which fits a signed 32-bit word, and converted to a float it is that number.
-/
import proofs.«136141_j31954556682741_2_alg».proof.Proof.Gen.ReferenceIdeal.Read
import proofs.«136141_j31954556682741_2_alg».proof.Proof.RefLossSums

noncomputable section

open scoped BigOperators

namespace Cert.RefLoss

open Cert.ReferenceIdeal Cert.ReferenceIdeal.Gen Cert.ReferenceIdeal.Read
open Idealize.ShloMosaic Idealize.ShloMosaic.ValueIdx

/-- Two numbers below 1024 are equal as 32-bit words exactly when they are equal. -/
theorem ofNat32_inj {a b : Nat} (ha : a < 1024) (hb : b < 1024) : BitVec.ofNat 32 a = BitVec.ofNat 32 b ↔ a = b := by
  constructor
  · intro e
    have h := congrArg BitVec.toNat e
    simp only [BitVec.toNat_ofNat] at h
    omega
  · rintro rfl
    rfl

/-- The "same point" array at `(q, k)`: the bit `1` on the diagonal and `0` off it. -/
theorem eye_apply (q k : Fin 1024) :
    val_main_v24 (F := Ideal) (ix2 q k) = if q = k then 1#1 else 0#1 := by
  rw [val_main_v24_apply, val_main_v23_apply, val_main_v20_apply, val_main_v21_apply, val_main_v22_apply,
    val_main_c_apply]
  show BitVec.ofBool (BitVec.ofNat 32 q.val + 0#32 == BitVec.ofNat 32 k.val) = _
  rw [BitVec.add_zero]
  by_cases e : q = k
  · subst e
    simp
  · have hne : BitVec.ofNat 32 q.val ≠ BitVec.ofNat 32 k.val :=
      fun h => e (Fin.ext ((ofNat32_inj q.isLt k.isLt).1 h))
    rw [if_neg e, beq_eq_false_iff_ne.2 hne]
    rfl

/-- The mask at `(β, q, k)`: the bit `0` on the diagonal and `1` off it, whatever the second argument. -/
theorem mask_apply (x1 : (⟨S32x1024x3, .f32⟩ : BufTy).Contents (Elt Ideal)) (β : Fin 32) (q k : Fin 1024) :
    val_main_v30 (F := Ideal) x1 (ix3 β q k) = if q = k then 0#1 else 1#1 := by
  have e2 : idx_main_v27 (idx_main_v29 (ix3 β q k)) = ix2 q k :=
    funext fun a => Fin.ext (by match a with | ⟨0, _⟩ => rfl | ⟨1, _⟩ => rfl)
  rw [val_main_v30_apply, val_main_v26_apply, val_main_v25_apply, val_main_v29_apply, val_main_v28_apply,
    val_main_v27_apply, e2, eye_apply]
  have hy : ∀ y : EReal, Ideal.cmp .une y y = 0#1 := fun y => by
    show BitVec.ofBool (decide (y ≠ y)) = 0#1
    simp
  generalize val_main_v19 (F := Ideal) x1 (ix3 β q k) = y
  show IntOp.andi (~~~Ideal.cmp .une y y) _ = _
  rw [hy]
  by_cases e : q = k
  · rw [if_pos e, if_pos e]; rfl
  · rw [if_neg e, if_neg e]; rfl

/-- The count of the mask over the pairs of cloud `β`: 1024 · 1023 as a 32-bit word. -/
theorem count_apply (x1 : (⟨S32x1024x3, .f32⟩ : BufTy).Contents (Elt Ideal)) (β : Fin 32) :
    val_main_v36 (F := Ideal) x1 (ix1 β) = 1047552#32 := by
  have hw : ∀ q k : Fin 1024, (if q = k then 0#1 else 1#1 : BitVec 1).setWidth 32 = if q = k then (0 : BitVec 32) else 1 :=
    fun q k => by split_ifs <;> rfl
  unfold val_main_v36
  rw [hostReduce_addi_eq_sum, sum_fibre12]
  simp only [val_main_v35_apply, mask_apply, val_main_c_5_apply, hw]
  rw [sum_offDiag_one, Fintype.card_fin, BitVec.zero_add]
  decide

/-- The divisor: the count as a float is the real number 1047552. -/
theorem den_apply (x1 : (⟨S32x1024x3, .f32⟩ : BufTy).Contents (Elt Ideal)) (β : Fin 32) :
    val_main_v37 (F := Ideal) x1 (ix1 β) = ((1047552 : ℝ) : EReal) := by
  rw [val_main_v37_apply, count_apply]
  show (((1047552#32 : BitVec 32).toInt : ℝ) : EReal) = _
  have h : (1047552#32 : BitVec 32).toInt = 1047552 := by decide
  rw [h]
  norm_num

end Cert.RefLoss

end
-- ==== Proof.RefLoss.lean ====
/-
  The reference's result is the masked loss of the specification.

  At `(β, q, k)` the reference selects, by the mask, between the absolute difference of the two distance matrices and
  zero: off the diagonal the discrepancy `|dist p − dist g|`, on it `0`. Summing away the two point axes gives, for
  each cloud, the off-diagonal total; dividing by the count of the mask (the real number 1047552) and by ten, summing
  over the 32 clouds from zero and dividing by 32 is the specification's `lossMasked`. Nothing here needs the
  coordinates to be finite: only `0 + a = a` and the rearrangement of finite sums over index sets are used.
-/
import proofs.«136141_j31954556682741_2_alg».proof.Proof.RefLossDist
import proofs.«136141_j31954556682741_2_alg».proof.Proof.RefLossMask
import Idealize.ShloMosaic.Lib.IdealHost

noncomputable section

open scoped BigOperators

namespace Cert.RefLoss

open Cert.ReferenceIdeal Cert.ReferenceIdeal.Gen Cert.ReferenceIdeal.Read Cert.PairwiseLoss
open Idealize.ShloMosaic Idealize.ShloMosaic.ValueIdx

/-- The masked discrepancy at `(β, q, k)`: zero on the diagonal, the discrepancy of the two distances off it. -/
theorem masked_apply (x0 x1 : (⟨S32x1024x3, .f32⟩ : BufTy).Contents (Elt Ideal)) (β : Fin 32) (q k : Fin 1024) :
    val_main_v33 (F := Ideal) x0 x1 (ix3 β q k)
      = if q = k then (0 : EReal) else gap (ofArray x0) (ofArray x1) β q k := by
  rw [val_main_v33_apply, mask_apply, val_main_v32_apply, val_main_v31_apply, dist0_apply, dist1_apply,
    val_main_call0_v1_apply, val_main_call0_v0_apply, val_main_cst_3_apply]
  by_cases e : q = k
  · rw [if_pos e, if_pos e, select_zero]
    exact Ideal.ofBits_zero_f32
  · rw [if_neg e, if_neg e, select_one]
    rfl

/-- The numerator of cloud `β`: the discrepancies summed over the pairs of distinct points. -/
theorem num_apply (x0 x1 : (⟨S32x1024x3, .f32⟩ : BufTy).Contents (Elt Ideal)) (β : Fin 32) :
    val_main_v34 (F := Ideal) x0 x1 (ix1 β) = offDiag (ofArray x0) (ofArray x1) β := by
  unfold val_main_v34
  rw [hostReduceAdd_apply]
  unfold Ideal.hostReduceAdd
  show val_main_cst_4 (F := Ideal) (Shape.Idx.first h_S_)
      + ∑ i ∈ Finset.univ.filter (fun i => reducesTo_S32x1024x1024_S32_d1_2.drop i = ix1 β),
          val_main_v33 (F := Ideal) x0 x1 i = _
  rw [sum_fibre12, val_main_cst_4_apply]
  simp only [masked_apply, Ideal.ofBits_def, Ideal.ofBits_zero_f32, zero_add]
  rfl

/-- THE REFERENCE'S RESULT is the masked loss of its two argument arrays read by coordinates. -/
theorem reference_eq (x0 x1 : (⟨S32x1024x3, .f32⟩ : BufTy).Contents (Elt Ideal)) (i : S_.Idx) :
    val_main_v42 (F := Ideal) x0 x1 i = lossMasked (ofArray x0) (ofArray x1) := by
  rw [val_main_v42_apply, val_main_v41_apply, val_main_cst_8_apply, val_main_cst_7_apply, sum_idx1]
  simp only [val_main_v40_apply, val_main_v38_apply, val_main_v39_apply, val_main_cst_6_apply, num_apply, den_apply,
    Ideal.hostDivf_def, Ideal.ofBits_def, Ideal.ofBits_zero_f32, zero_add]
  rfl

end Cert.RefLoss

end
-- ==== Proof.PairwiseLossLawConsts.lean ====
/-
  The float patterns the loss and the finiteness test spell, as the extended reals they denote.

  A 32-bit pattern with sign 0, exponent field E (not all ones) and significand field T denotes the real
  (2^23 + T) · 2^(E − 127 − 23); the pattern with exponent field all ones and T = 0 denotes +∞.

  * 0x497FC000: E = 146, T = 8372224, so (8388608 + 8372224) · 2^(−4) = 16760832 / 16 = 1047552 = 1024 · 1023.
  * 0x38D1B717: E = 113, T = 5355287, so 13743895 · 2^(−37), a positive real (the float nearest 10⁻⁴).
  * 0x7F800000: E = 255, T = 0, so +∞.
-/
import proofs.«136141_j31954556682741_2_alg».proof.Proof.PairwiseLoss

noncomputable section

namespace Cert.PairwiseLoss

open Idealize.ShloMosaic

/-- The divisor of the loss is exactly the number of ordered pairs of distinct points. -/
theorem pairs_eq : pairs = ((1047552 : ℝ) : EReal) := by
  unfold pairs
  simp [Ideal.ofBits, Ideal.ieee, -EReal.coe_mul]; norm_num

/-- The regulariser is a real number, 13743895 / 2^37. -/
theorem eps_eq : eps = ((13743895 / 137438953472 : ℝ) : EReal) := by
  unfold eps
  simp [Ideal.ofBits, Ideal.ieee, -EReal.coe_mul]; norm_num

/-- The regulariser is a nonnegative real. -/
theorem eps_real : ∃ e : ℝ, 0 ≤ e ∧ eps = (e : EReal) :=
  ⟨13743895 / 137438953472, by norm_num, eps_eq⟩

/-- The pattern of the positive infinity denotes the top element. -/
theorem ofBits_inf : Ideal.ofBits .f32 0x7F800000#32 = (⊤ : EReal) := by
  simp [Ideal.ofBits, Ideal.ieee]

end Cert.PairwiseLoss

end
-- ==== Proof.PairwiseLossLaw.lean ====
/-
  The two spellings of the loss agree on finite inputs.

  On a diagonal pair (q, q) every coordinate difference is r − r for a real r, which is 0; so the squared
  distance is 0 for either batch of clouds, both regularised distances are the one number √ε, and their
  absolute difference is 0. The diagonal therefore adds nothing to the sum over all ordered pairs, and the
  sum with the diagonal left out is the whole sum. The divisor's float pattern is exactly 1024 · 1023.

  Finiteness of the coordinates is used in exactly one place: r − r = 0 holds for a real r and fails for an
  infinity (in the extended reals ⊤ − ⊤ = ⊥).
-/
import proofs.«136141_j31954556682741_2_alg».proof.Proof.PairwiseLossLawConsts

noncomputable section

namespace Cert.PairwiseLoss

open Idealize.ShloMosaic

/-- A real number minus itself is zero, also when read in the extended reals. -/
theorem coe_sub_self (r : ℝ) : (r : EReal) - (r : EReal) = 0 := by
  rw [← EReal.coe_sub, sub_self, EReal.coe_zero]

/-- The squared distance from a point with real coordinates to itself is zero.
    This is the one place finiteness is used: each summand is (r − r) · (r − r) with r real. -/
theorem sqDist_diag {x : Clouds} (hx : Finite x) (β : Fin 32) (q : Fin 1024) : sqDist x β q q = 0 := by
  unfold sqDist
  refine Finset.sum_eq_zero fun c _ => ?_
  obtain ⟨r, hr⟩ := hx β q c
  rw [hr, coe_sub_self, mul_zero]

/-- The regularised distance from a finite point to itself is √ε, whatever the cloud. -/
theorem dist_diag {x : Clouds} (hx : Finite x) (β : Fin 32) (q : Fin 1024) :
    dist x β q q = Ideal.sqrt eps := by
  unfold dist
  rw [sqDist_diag hx, zero_add]

/-- √ε is a real number, since ε is a nonnegative real. -/
theorem sqrt_eps_real : ∃ s : ℝ, Ideal.sqrt eps = (s : EReal) := by
  obtain ⟨e, he, h⟩ := eps_real
  exact ⟨Real.sqrt e, by rw [h, Ideal.sqrt_coe, if_neg (not_lt.mpr he)]⟩

/-- On the diagonal the discrepancy is |√ε − √ε| = 0. -/
theorem gap_diag {p g : Clouds} (hp : Finite p) (hg : Finite g) (β : Fin 32) (q : Fin 1024) :
    gap p g β q q = 0 := by
  obtain ⟨s, hs⟩ := sqrt_eps_real
  unfold gap
  rw [dist_diag hp, dist_diag hg, hs, coe_sub_self, neg_zero, max_self]

/-- Leaving the diagonal out of the sum over ordered pairs changes nothing: its terms are zero. -/
theorem offDiag_eq_total {p g : Clouds} (hp : Finite p) (hg : Finite g) (β : Fin 32) :
    offDiag p g β = total p g β := by
  unfold offDiag total
  refine Finset.sum_congr rfl fun q _ => Finset.sum_congr rfl fun k _ => ?_
  split_ifs with h
  · subst h
    exact (gap_diag hp hg β q).symm
  · rfl

/-- The masked mean with the count of kept pairs as divisor is the full mean with the float divisor. -/
theorem lossMasked_eq_lossFull {p g : Clouds} (hp : Finite p) (hg : Finite g) :
    lossMasked p g = lossFull p g := by
  unfold lossMasked lossFull
  simp only [offDiag_eq_total hp hg, pairs_eq]

end Cert.PairwiseLoss

end
-- ==== Proof.FiniteInputs.lean ====
/-
  From the precondition to "every coordinate is a real number".

  The precondition tests |x| < +∞ at every element of each argument, takes the conjunction of all the
  tests of one argument (a reduction by "and" over all three axes, starting from 1), and then the
  conjunction of the two arguments' answers. If the answer is 1, every single test is 1. One test says
  max x (−x) < ⊤ in the extended reals; that excludes x = ⊤ (then max x (−x) = ⊤) and x = ⊥ (then
  −x = ⊤), so x is a real number.
-/
import proofs.«136141_j31954556682741_2_alg».proof.Pre_finite_inputs
import proofs.«136141_j31954556682741_2_alg».proof.Proof.PairwiseLossLawConsts
import Idealize.ShloMosaic.Lib.ReduceAll
import Idealize.ShloMosaic.Lib.IdealHost
import Idealize.ShloMosaic.PureOps.Ideal.Laws

noncomputable section

namespace Cert.FiniteInputs

open Idealize.ShloMosaic Idealize.ShloMosaic.ValueIdx
open Cert.Pre_finite_inputs (S32x1024x3 S_ Facts)

/-- The shape with no axes has exactly one index. -/
instance : Subsingleton S_.Idx := ⟨fun a b => funext fun d => d.elim0⟩

/-- An extended real whose absolute value is below +∞ is a real number: for ⊥ the negation is ⊤, for ⊤
    the number itself is. -/
theorem real_of_abs_lt_top (x : EReal) (h : max x (-x) < ⊤) : ∃ r : ℝ, x = (r : EReal) := by
  induction x using EReal.rec with
  | bot => simp at h
  | coe r => exact ⟨r, rfl⟩
  | top => simp at h

/-- One element's test |x| < +∞ answering 1 makes that element a real number. The right-hand side of the
    comparison is the scalar +∞ read at every index, and the comparison answers 1 exactly when it holds. -/
theorem real_of_test [Facts] (x : FVec Ideal S32x1024x3 .f32) (i : S32x1024x3.Idx)
    (h : cmpf .olt (Host.absf x)
          (broadcastInDim S32x1024x3 ![] Facts.bcast_S_S32x1024x3 (constant (F := Ideal) S_ .f32 0x7F800000#32)) i = 1#1) :
    ∃ r : ℝ, x i = (r : EReal) := by
  rw [cmpf_apply, broadcastInDim_scalar_apply, constant_apply, Cert.PairwiseLoss.ofBits_inf] at h
  have hb : BitVec.ofBool (decide (max (x i) (-(x i)) < (⊤ : EReal))) = 1#1 := h
  refine real_of_abs_lt_top _ ?_
  by_contra hc
  rw [decide_eq_false hc] at hb
  exact absurd hb (by decide)

/-- The conjunction of one argument's tests answering 1 makes every coordinate of it real. -/
theorem all_real [Facts] (x : FVec Ideal S32x1024x3 .f32)
    (h : Host.reduce IntOp.andi
        (cmpf .olt (Host.absf x)
          (broadcastInDim S32x1024x3 ![] Facts.bcast_S_S32x1024x3 (constant (F := Ideal) S_ .f32 0x7F800000#32)))
        (constantI S_ 1 1#1) Facts.reducesTo_S32x1024x3_S_d0_1_2 Facts.h_S_ ix0 = 1#1) :
    Cert.PairwiseLoss.Finite (Cert.PairwiseLoss.ofArray x) :=
  fun β q c => real_of_test x (ix3 β q c) (Host.reduce_andi_all _ _ _ _ ix0 h _)

/-- Under the precondition both batches of clouds have real coordinates throughout. -/
theorem finite_of_pre [Cert.Pre_finite_inputs.Facts] (x0 x1 : FVec Ideal Cert.Pre_finite_inputs.S32x1024x3 .f32)
    (h : Cert.Pre_finite_inputs.fn (F := Ideal) x0 x1 = fun _ => 1#1) :
    Cert.PairwiseLoss.Finite (Cert.PairwiseLoss.ofArray x0) ∧ Cert.PairwiseLoss.Finite (Cert.PairwiseLoss.ofArray x1) := by
  have h0 := congrFun h ValueIdx.ix0
  dsimp only [Cert.Pre_finite_inputs.fn] at h0
  obtain ⟨ha, hb⟩ := IntOp.andi_eq_one.1 h0
  exact ⟨all_real x0 ha, all_real x1 hb⟩

end Cert.FiniteInputs

end
-- ==== Proof.lean ====
/-
  A pairwise-distance loss kernel against its reference: the certificate's claim.

  For two batches of 32 clouds of 1024 points in 3-space the loss is the mean over clouds of
  (mean over pairs of distinct points of |√(‖p_q − p_k‖² + ε) − √(‖g_q − g_k‖² + ε)|) / 10.

  The reference masks the diagonal pairs out of the sum and divides by the count of the pairs it kept. The kernel
  sums ALL ordered pairs — per cloud in four tiles of 256 points inside a counted loop, per core over 16 clouds
  into the corner of an output block kept across grid points, the two cores' corners added and divided by 32 after
  the call — and divides by the constant 1024 · 1023. On the extended reals the two agree exactly when the
  diagonal pairs contribute nothing, and they do for finite inputs: each diagonal discrepancy is √ε − √ε = 0.
  For an infinite coordinate `x − x` is not zero, so the precondition is used, at that one place.

  The frames of both printed kernels are the generated ones; the reference's frame is its generated run with
  the result dropped; the idealization rewrote nothing. The value of the idealized kernel is read off its
  generated frame run (modules KernelPoint, TileSum, KernelPointTotal, KernelRunningSum, KernelHostBlocks,
  KernelHostTail, KernelWriteBack, KernelLoss), that of the reference off its generated run (RefLoss*), and the law
  joining the two spellings is PairwiseLossLaw.
-/
import proofs.«136141_j31954556682741_2_alg».proof.Defs
import proofs.«136141_j31954556682741_2_alg».proof.Proof.Gen.Kernel
import proofs.«136141_j31954556682741_2_alg».proof.Proof.Gen.Kernel.Skeleton
import proofs.«136141_j31954556682741_2_alg».proof.Proof.Gen.Kernel.Loops
import proofs.«136141_j31954556682741_2_alg».proof.Proof.Gen.Kernel.Launch
import proofs.«136141_j31954556682741_2_alg».proof.Proof.Gen.Kernel.Points
import proofs.«136141_j31954556682741_2_alg».proof.Proof.Gen.Kernel.Frame
import proofs.«136141_j31954556682741_2_alg».proof.Proof.Gen.KernelIdeal
import proofs.«136141_j31954556682741_2_alg».proof.Proof.Gen.KernelIdeal.Skeleton
import proofs.«136141_j31954556682741_2_alg».proof.Proof.Gen.KernelIdeal.Loops
import proofs.«136141_j31954556682741_2_alg».proof.Proof.Gen.KernelIdeal.Launch
import proofs.«136141_j31954556682741_2_alg».proof.Proof.Gen.KernelIdeal.Points
import proofs.«136141_j31954556682741_2_alg».proof.Proof.Gen.KernelIdeal.Frame
import proofs.«136141_j31954556682741_2_alg».proof.Proof.Gen.ReferenceIdeal
import proofs.«136141_j31954556682741_2_alg».proof.Proof.Gen.Pre_finite_inputs
import proofs.«136141_j31954556682741_2_alg».proof.Proof.Gen.ReferenceIdeal.Run
import proofs.«136141_j31954556682741_2_alg».proof.Proof.Gen.ReferenceIdeal.Read
import proofs.«136141_j31954556682741_2_alg».proof.Proof.KernelLoss
import proofs.«136141_j31954556682741_2_alg».proof.Proof.RefLoss
import proofs.«136141_j31954556682741_2_alg».proof.Proof.PairwiseLossLaw
import proofs.«136141_j31954556682741_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run, read: the result is the loss with every ordered pair summed, of the two
    arguments; the arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v8)
            = (fun _ => Cert.PairwiseLoss.lossFull (Cert.KernelIdeal.Loss.predClouds m c) (Cert.KernelIdeal.Loss.gtClouds m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v8 (Pipeline.mem_restRefs_of Cert.KernelIdeal.main_v8 (by decide) (by decide))).trans
        (Cert.KernelIdeal.Loss.value m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m ρ)

/-- Both programs end at the same extended real: the kernel at the all-pairs loss, the reference at the masked
    one, equal because the inputs are finite. -/
theorem algebraic : Cert.algebraic_KernelIdeal_ReferenceIdeal := by
  intro m ρ m' ρ' hpre hagree
  refine ⟨fun c => (fun _ => Cert.PairwiseLoss.lossFull (Cert.KernelIdeal.Loss.predClouds m c) (Cert.KernelIdeal.Loss.gtClouds m c)),
    kernel_run m ρ, ?_⟩
  refine (θ_run Cert.ReferenceIdeal.defs _ _).mono (fun _ h c => ⟨(h c).1.trans ?_, (h c).2⟩)
    (Cert.ReferenceIdeal.Value.run (F := Ideal) m' ρ')
  have hfin := Cert.FiniteInputs.finite_of_pre _ _ (hpre c)
  rw [Cert.ReferenceIdeal.Read.val_main_v42_eq]
  funext i
  rw [Cert.RefLoss.reference_eq, (hagree c).1, (hagree c).2]
  exact Cert.PairwiseLoss.lossMasked_eq_lossFull hfin.1 hfin.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
